-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x256 : Shape := ⟨3, ![512, 512, 256]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S512x512x256 : S_.BroadcastsInDim S512x512x256 (![] : Fin 0 → Fin S512x512x256.rank)
  reducesTo_S512x512x256_S_d0_1_2 : S512x512x256.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S256x128 .f32) (main_arg8 : FVec F S128 .f32) (main_arg9 : FVec F S128x128 .f32) (main_arg10 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S512x512x256 .f32) (main_arg1 : FVec F S512x128 .f32) (main_arg2 : FVec F S512x128 .f32) (main_arg3 : FVec F S512x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) : IVec S_ 1 :=
  let main_v0 : FVec F S512x512x256 .f32 := Host.absf main_arg0
  let main_cst : FVec F S_ .f32 := constant S_ .f32 0x7F800000#32
  let main_v1 : FVec F S512x512x256 .f32 := broadcastInDim S512x512x256 ![] bcast_S_S512x512x256 main_cst
  let main_v2 : IVec S512x512x256 1 := cmpf .olt main_v0 main_v1
  let main_c : IVec S_ 1 := constantI S_ 1 1#1
  let main_v3 : IVec S_ 1 := (fun x v => Host.reduce IntOp.andi x v reducesTo_S512x512x256_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_arg7 main_arg8 main_arg9 main_arg10 main_v13 main_v16
-- ==== Kernel.lean ====
abbrev S512x512x256 : Shape := ⟨3, ![512, 512, 256]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S1x128 : Shape := ⟨2, ![1, 128]⟩
abbrev S512x512x128 : Shape := ⟨3, ![512, 512, 128]⟩
abbrev S32x512x128 : Shape := ⟨3, ![32, 512, 128]⟩
abbrev S16x512x256 : Shape := ⟨3, ![16, 512, 256]⟩
abbrev S16x128 : Shape := ⟨2, ![16, 128]⟩
abbrev S16x512x128 : Shape := ⟨3, ![16, 512, 128]⟩
abbrev S1x512x128 : Shape := ⟨3, ![1, 512, 128]⟩
abbrev S8192x128 : Shape := ⟨2, ![8192, 128]⟩
abbrev S16x1x128 : Shape := ⟨3, ![16, 1, 128]⟩
abbrev S1x1x128 : Shape := ⟨3, ![1, 1, 128]⟩
abbrev S_ : Shape := ⟨0, ![]⟩
abbrev S512x256 : Shape := ⟨2, ![512, 256]⟩

abbrev nBuf : Space → Nat
  | .hbm => 52
  | .vmem => 16
  | .smem => 0
  | _ => 0

abbrev bufTy : (tb : Table) → Fin (tcTables nBuf tb) → BufTy
  | .hbm, ⟨0, _⟩ => ⟨S512x512x256, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S256x128, .f32⟩
  | .hbm, ⟨14, _⟩ => ⟨S512x128, .f32⟩
  | .hbm, ⟨15, _⟩ => ⟨S1x128, .f32⟩
  | .hbm, ⟨16, _⟩ => ⟨S1x128, .f32⟩
  | .hbm, ⟨17, _⟩ => ⟨S512x512x128, .f32⟩
  | .hbm, ⟨18, _⟩ => ⟨S512x128, .f32⟩
  | .hbm, ⟨19, _⟩ => ⟨S32x512x128, .f32⟩
  | .hbm, ⟨20, _⟩ => ⟨S_, .f32⟩
  | .hbm, ⟨21, _⟩ => ⟨S512x128, .f32⟩
  | .hbm, ⟨22, _⟩ => ⟨S512x256, .f32⟩
  | .hbm, ⟨23, _⟩ => ⟨S512x128, .f32⟩
  | .hbm, ⟨24, _⟩ => ⟨S1x128, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S512x128, .f32⟩
  | .hbm, ⟨31, _⟩ => ⟨S1x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x256, .f32⟩
  | .hbm, ⟨38, _⟩ => ⟨S512x128, .f32⟩
  | .hbm, ⟨39, _⟩ => ⟨S1x128, .f32⟩
  | .hbm, ⟨40, _⟩ => ⟨S512x128, .f32⟩
  | .hbm, ⟨41, _⟩ => ⟨S512x128, .f32⟩
  | .hbm, ⟨42, _⟩ => ⟨S_, .f32⟩
  | .hbm, ⟨43, _⟩ => ⟨S512x128, .f32⟩
  | .hbm, ⟨44, _⟩ => ⟨S512x128, .f32⟩
  | .hbm, ⟨45, _⟩ => ⟨S512x128, .f32⟩
  | .hbm, ⟨46, _⟩ => ⟨S1x128, .f32⟩
  | .hbm, ⟨47, _⟩ => ⟨S512x128, .f32⟩
  | .hbm, ⟨48, _⟩ => ⟨S512x128, .f32⟩
  | .hbm, ⟨49, _⟩ => ⟨S_, .f32⟩
  | .hbm, ⟨50, _⟩ => ⟨S512x128, .f32⟩
  | .hbm, ⟨51, _⟩ => ⟨S512x128, .f32⟩
  | .local _ .vmem, ⟨0, _⟩ => ⟨S16x512x256, .f32⟩
  | .local _ .vmem, ⟨1, _⟩ => ⟨S16x512x256, .f32⟩
  | .local _ .vmem, ⟨2, _⟩ => ⟨S16x128, .f32⟩
  | .local _ .vmem, ⟨3, _⟩ => ⟨S16x128, .f32⟩
  | .local _ .vmem, ⟨4, _⟩ => ⟨S512x128, .f32⟩
  | .local _ .vmem, ⟨5, _⟩ => ⟨S128x128, .f32⟩
  | .local _ .vmem, ⟨6, _⟩ => ⟨S256x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S16x512x128, .f32⟩
  | .local _ .vmem, ⟨11, _⟩ => ⟨S16x512x128, .f32⟩
  | .local _ .vmem, ⟨12, _⟩ => ⟨S16x128, .f32⟩
  | .local _ .vmem, ⟨13, _⟩ => ⟨S16x128, .f32⟩
  | .local _ .vmem, ⟨14, _⟩ => ⟨S1x512x128, .f32⟩
  | .local _ .vmem, ⟨15, _⟩ => ⟨S1x512x128, .f32⟩
  | _, _ => ⟨S512x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_cst : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call1_cst : Ref sig .tc := ⟨.hbm, 34, rfl⟩
abbrev main_call1_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call2_cst : Ref sig .tc := ⟨.hbm, 42, rfl⟩
abbrev main_call2_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call3_cst : Ref sig .tc := ⟨.hbm, 49, rfl⟩
abbrev main_call3_v0 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S512x128_S128x128_0_0 : S512x128.Slices ![0, 0] S128x128
  slices_S512x128_S128x128_128_0 : S512x128.Slices ![128, 0] S128x128
  slices_S512x128_S256x128_256_0 : S512x128.Slices ![256, 0] S256x128
  shapeCasts_S128_S1x128 : S128.ShapeCasts S1x128
  inb_S16x128_S16x128_0_0 : ∀ a, (![0, 0] : Fin 2 → Nat) a + S16x128.size a ≤ S16x128.size a
  h_S16x128 : 0 < S16x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S16x512x256_S16x512x128_0_0_0 : ∀ a, (![0, 0, 0] : Fin 3 → Nat) a + S16x512x128.size a ≤ S16x512x256.size a
  h_S16x512x128 : 0 < S16x512x128.numel
  shapeCasts_S16x512x128_S8192x128 : S16x512x128.ShapeCasts S8192x128
  slices_S256x128_o0_0_S128x128 : S256x128.Slices ![0, 0] S128x128
  inb_S16x512x256_S16x512x128_0_0_128 : ∀ a, (![0, 0, 128] : Fin 3 → Nat) a + S16x512x128.size a ≤ S16x512x256.size a
  slices_S256x128_o128_0_S128x128 : S256x128.Slices ![128, 0] S128x128
  shapeCasts_S8192x128_S16x512x128 : S8192x128.ShapeCasts S16x512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S16x128_S16x1x128 : S16x128.ShapeCasts S16x1x128
  shapeCasts_S512x128_S1x512x128 : S512x128.ShapeCasts S1x512x128
  broadcasts_S16x1x128_S16x512x128 : S16x1x128.Broadcasts S16x512x128
  broadcasts_S1x512x128_S16x512x128 : S1x512x128.Broadcasts S16x512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S16x512x128 : S1x1x128.Broadcasts S16x512x128
  inb_S16x512x128_S16x512x128_0_0_0 : ∀ a, (![0, 0, 0] : Fin 3 → Nat) a + S16x512x128.size a ≤ S16x512x128.size a
  reduces_S16x512x128_S16x128 : S16x512x128.Reduces [1] S16x128
  reduces_S16x512x128_S512x128 : S16x512x128.Reduces [0] S512x128
  inb_S1x512x128_S1x512x128_0_0_0 : ∀ a, (![0, 0, 0] : Fin 3 → Nat) a + S1x512x128.size a ≤ S1x512x128.size a
  h_S1x512x128 : 0 < S1x512x128.numel
  reducesTo_S32x512x128_S512x128_d0 : S32x512x128.ReducesTo [0] S512x128
  h_S_ : 0 < S_.numel
  concatenates_S512x128_S512x128_S512x256_d1 : Shape.Concatenates [S512x128, S512x128] S512x256 1
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  dot_S512x128_S128x128_S512x128_1_0_0_1_n_n_wf : DotDims.WF S512x128 S128x128 S512x128 [1] [0] [0] [1] [] []
  dot_S16x128_S128x128_S16x128_1_0_0_1_n_n_wf : DotDims.WF S16x128 S128x128 S16x128 [1] [0] [0] [1] [] []
  dot_S8192x128_S128x128_S8192x128_1_0_0_1_n_n_wf : DotDims.WF S8192x128 S128x128 S8192x128 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x256.size a ≤ S512x512x256.size a
  hwx0_0 : ∀ i : grid0.Coords, EltTy.bits .f32 = 32 ∨ (Rect.block (s := S512x512x256) S16x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S512x128.size a
  hwx0_1 : ∀ i : grid0.Coords, EltTy.bits .f32 = 32 ∨ (Rect.block (s := S512x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x512x128.size a ≤ S512x512x128.size a
  hwx0_8 : ∀ i : grid0.Coords, EltTy.bits .f32 = 32 ∨ (Rect.block (s := S512x512x128) S16x512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x128.size a ≤ S512x128.size a
  hwx0_9 : ∀ i : grid0.Coords, EltTy.bits .f32 = 32 ∨ (Rect.block (s := S512x128) S16x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x128.size a ≤ S32x512x128.size a
  hwx0_10 : ∀ i : grid0.Coords, EltTy.bits .f32 = 32 ∨ (Rect.block (s := S32x512x128) S1x512x128.size (cc0_transform_10 i) (hinb0_10 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S16x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S16x512x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S16x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S1x512x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S512x512x256 : Shape := ⟨3, ![512, 512, 256]⟩
abbrev S512x128 : Shape := ⟨2, ![512, 128]⟩
abbrev S128 : Shape := ⟨1, ![128]⟩
abbrev S128x128 : Shape := ⟨2, ![128, 128]⟩
abbrev S256x128 : Shape := ⟨2, ![256, 128]⟩
abbrev S512x1x128 : Shape := ⟨3, ![512, 1, 128]⟩
abbrev S1x512x128 : Shape := ⟨3, ![1, 512, 128]⟩
abbrev S512x512x128 : Shape := ⟨3, ![512, 512, 128]⟩
abbrev S1x1x128 : Shape := ⟨3, ![1, 1, 128]⟩
abbrev S_ : Shape := ⟨0, ![]⟩
abbrev S512x256 : Shape := ⟨2, ![512, 256]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S512x512x256, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S256x128, .f32⟩
  | .hbm, ⟨14, _⟩ => ⟨S512x128, .f32⟩
  | .hbm, ⟨15, _⟩ => ⟨S512x1x128, .f32⟩
  | .hbm, ⟨16, _⟩ => ⟨S512x128, .f32⟩
  | .hbm, ⟨17, _⟩ => ⟨S1x512x128, .f32⟩
  | .hbm, ⟨18, _⟩ => ⟨S512x512x128, .f32⟩
  | .hbm, ⟨19, _⟩ => ⟨S512x512x128, .f32⟩
  | .hbm, ⟨20, _⟩ => ⟨S512x512x128, .f32⟩
  | .hbm, ⟨21, _⟩ => ⟨S512x512x128, .f32⟩
  | .hbm, ⟨22, _⟩ => ⟨S512x512x128, .f32⟩
  | .hbm, ⟨23, _⟩ => ⟨S1x1x128, .f32⟩
  | .hbm, ⟨24, _⟩ => ⟨S512x512x128, .f32⟩
  | .hbm, ⟨25, _⟩ => ⟨S512x512x128, .f32⟩
  | .hbm, ⟨26, _⟩ => ⟨S_, .f32⟩
  | .hbm, ⟨27, _⟩ => ⟨S512x512x128, .f32⟩
  | .hbm, ⟨28, _⟩ => ⟨S512x512x128, .f32⟩
  | .hbm, ⟨29, _⟩ => ⟨S512x512x128, .f32⟩
  | .hbm, ⟨30, _⟩ => ⟨S1x1x128, .f32⟩
  | .hbm, ⟨31, _⟩ => ⟨S512x512x128, .f32⟩
  | .hbm, ⟨32, _⟩ => ⟨S512x512x128, .f32⟩
  | .hbm, ⟨33, _⟩ => ⟨S_, .f32⟩
  | .hbm, ⟨34, _⟩ => ⟨S512x512x128, .f32⟩
  | .hbm, ⟨35, _⟩ => ⟨S512x512x128, .f32⟩
  | .hbm, ⟨36, _⟩ => ⟨S_, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x256, .f32⟩
  | .hbm, ⟨41, _⟩ => ⟨S512x128, .f32⟩
  | .hbm, ⟨42, _⟩ => ⟨S1x128, .f32⟩
  | .hbm, ⟨43, _⟩ => ⟨S512x128, .f32⟩
  | .hbm, ⟨44, _⟩ => ⟨S512x128, .f32⟩
  | .hbm, ⟨45, _⟩ => ⟨S_, .f32⟩
  | .hbm, ⟨46, _⟩ => ⟨S512x128, .f32⟩
  | .hbm, ⟨47, _⟩ => ⟨S512x128, .f32⟩
  | .hbm, ⟨48, _⟩ => ⟨S512x128, .f32⟩
  | .hbm, ⟨49, _⟩ => ⟨S1x128, .f32⟩
  | .hbm, ⟨50, _⟩ => ⟨S512x128, .f32⟩
  | .hbm, ⟨51, _⟩ => ⟨S512x128, .f32⟩
  | .hbm, ⟨52, _⟩ => ⟨S_, .f32⟩
  | .hbm, ⟨53, _⟩ => ⟨S512x128, .f32⟩
  | .hbm, ⟨54, _⟩ => ⟨S512x128, .f32⟩
  | .hbm, ⟨55, _⟩ => ⟨S512x256, .f32⟩
  | .hbm, ⟨56, _⟩ => ⟨S512x128, .f32⟩
  | .hbm, ⟨57, _⟩ => ⟨S1x128, .f32⟩
  | .hbm, ⟨58, _⟩ => ⟨S512x128, .f32⟩
  | .hbm, ⟨59, _⟩ => ⟨S512x128, .f32⟩
  | .hbm, ⟨60, _⟩ => ⟨S_, .f32⟩
  | .hbm, ⟨61, _⟩ => ⟨S512x128, .f32⟩
  | .hbm, ⟨62, _⟩ => ⟨S512x128, .f32⟩
  | .hbm, ⟨63, _⟩ => ⟨S512x128, .f32⟩
  | .hbm, ⟨64, _⟩ => ⟨S1x128, .f32⟩
  | .hbm, ⟨65, _⟩ => ⟨S512x128, .f32⟩
  | .hbm, ⟨66, _⟩ => ⟨S512x128, .f32⟩
  | .hbm, ⟨67, _⟩ => ⟨S_, .f32⟩
  | .hbm, ⟨68, _⟩ => ⟨S512x128, .f32⟩
  | .hbm, ⟨69, _⟩ => ⟨S512x128, .f32⟩
  | _, _ => ⟨S512x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_cst : Ref sig .tc := ⟨.hbm, 33, rfl⟩
abbrev main_call1_v0 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call2_cst : Ref sig .tc := ⟨.hbm, 45, rfl⟩
abbrev main_call2_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call3_cst : Ref sig .tc := ⟨.hbm, 52, rfl⟩
abbrev main_call3_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call4_cst : Ref sig .tc := ⟨.hbm, 60, rfl⟩
abbrev main_call4_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call5_cst : Ref sig .tc := ⟨.hbm, 67, rfl⟩
abbrev main_call5_v0 : Ref sig .tc := ⟨.hbm, 68, rfl⟩
abbrev main_v44 : Ref sig .tc := ⟨.hbm, 69, rfl⟩

abbrev nD : Nat := 1
abbrev τ : Topo := Topo.v7x

variable {F : FTy → Type} [FloatOps F]

class Facts₀ : Prop where
  slices_S512x128_S128x128_0_0 : S512x128.Slices ![0, 0] S128x128
  slices_S512x128_S128x128_128_0 : S512x128.Slices ![128, 0] S128x128
  slices_S512x128_S256x128_256_0 : S512x128.Slices ![256, 0] S256x128
  bcast_S512x128_S512x1x128_0_2 : S512x128.BroadcastsInDim S512x1x128 (![0, 2] : Fin 2 → Fin S512x1x128.rank)
  bcast_S512x128_S1x512x128_1_2 : S512x128.BroadcastsInDim S1x512x128 (![1, 2] : Fin 2 → Fin S1x512x128.rank)
  bcast_S512x1x128_S512x512x128_0_1_2 : S512x1x128.BroadcastsInDim S512x512x128 (![0, 1, 2] : Fin 3 → Fin S512x512x128.rank)
  bcast_S1x512x128_S512x512x128_0_1_2 : S1x512x128.BroadcastsInDim S512x512x128 (![0, 1, 2] : Fin 3 → Fin S512x512x128.rank)
  bcast_S128_S1x1x128_2 : S128.BroadcastsInDim S1x1x128 (![2] : Fin 1 → Fin S1x1x128.rank)
  bcast_S1x1x128_S512x512x128_0_1_2 : S1x1x128.BroadcastsInDim S512x512x128 (![0, 1, 2] : Fin 3 → Fin S512x512x128.rank)
  bcast_S_S512x512x128 : S_.BroadcastsInDim S512x512x128 (![] : Fin 0 → Fin S512x512x128.rank)
  reducesTo_S512x512x128_S512x128_d1 : S512x512x128.ReducesTo [1] S512x128
  h_S_ : 0 < S_.numel
  reducesTo_S512x512x128_S512x128_d0 : S512x512x128.ReducesTo [0] S512x128
  concatenates_S512x128_S512x128_S512x256_d1 : Shape.Concatenates [S512x128, S512x128] S512x256 1
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  dot_S512x128_S128x128_S512x128_1_0_0_1_n_n_wf : DotDims.WF S512x128 S128x128 S512x128 [1] [0] [0] [1] [] []
  dot_S512x512x256_S256x128_S512x512x128_2_0_01_1_n_n_wf : DotDims.WF S512x512x256 S256x128 S512x512x128 [2] [0] [0, 1] [1] [] []
  dot_S512x512x128_S128x128_S512x512x128_2_0_01_1_n_n_wf : DotDims.WF S512x512x128 S128x128 S512x512x128 [2] [0] [0, 1] [1] [] []
  dot_S512x256_S256x128_S512x128_1_0_0_1_n_n_wf : DotDims.WF S512x256 S256x128 S512x128 [1] [0] [0] [1] [] []

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512x256_S256x128_S512x512x128_2_0_01_1_n_n : DotDims S512x512x256 S256x128 S512x512x128 where
  lhsContracting := [2]
  rhsContracting := [0]
  lhsNonContracting := [0, 1]
  rhsNonContracting := [1]
  lhsBatch := []
  rhsBatch := []
  wf := dot_S512x512x256_S256x128_S512x512x128_2_0_01_1_n_n_wf
def dot_S512x512x128_S128x128_S512x512x128_2_0_01_1_n_n : DotDims S512x512x128 S128x128 S512x512x128 where
  lhsContracting := [2]
  rhsContracting := [0]
  lhsNonContracting := [0, 1]
  rhsNonContracting := [1]
  lhsBatch := []
  rhsBatch := []
  wf := dot_S512x512x128_S128x128_S512x512x128_2_0_01_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.Spec.lean ====
/-
  The mathematics both programs compute, stated once over plain finite index types.

  An edge (a, b) with 256 input features is updated by a two-layer perceptron whose first layer also sees the
  two end nodes:
    hid(a, b, d) = max( (Σ_k NA(a,k)·Wa(k,d)) + Bp(b,d) + (Σ_e X(a,b,e)·We(e,d)) + b1(d), 0 )
    lat(a, b, d) = max( (Σ_e hid(a,b,e)·W2(e,d)) + b2(d), 0 )
  where Wa, Wb, We are the three row bands of the first layer's 512-row weight matrix and Bp = NB · Wb.
  The node updates sum lat over one endpoint: over b for the a-nodes, over a for the b-nodes. One program sums the
  512 values of a directly; the other sums 16 consecutive values at a time and then the 32 partial sums: the same
  finite sum, regrouped, in a commutative monoid. Likewise a contraction over 256 features is the sum of the two
  contractions over its halves. Nothing here needs a value to be finite.
-/
import Idealize.ShloMosaic.PureOps.Ideal
import Idealize.ShloMosaic.Lib.ValueIdx

noncomputable section

namespace Cert.EdgeNet

open Idealize.ShloMosaic Idealize.ShloMosaic.ValueIdx

/-- The arrays the edge update reads, as functions of plain coordinates. -/
structure Params where
  /-- edge features, (a, b, e) -/
  X : Fin 512 → Fin 512 → Fin 256 → EReal
  /-- a-node features, (a, k) -/
  NA : Fin 512 → Fin 128 → EReal
  /-- the weight band that multiplies the a-node features, (k, d) -/
  Wa : Fin 128 → Fin 128 → EReal
  /-- the b-nodes' projected features NB · Wb, (b, d) -/
  Bp : Fin 512 → Fin 128 → EReal
  /-- the weight band that multiplies the edge features, (e, d) -/
  We : Fin 256 → Fin 128 → EReal
  /-- first-layer bias -/
  b1 : Fin 128 → EReal
  /-- second-layer weights, (e, d) -/
  W2 : Fin 128 → Fin 128 → EReal
  /-- second-layer bias -/
  b2 : Fin 128 → EReal

/-- The hidden layer at edge (a, b), feature d. -/
def hid (P : Params) (a b : Fin 512) (d : Fin 128) : EReal :=
  max ((((∑ k : Fin 128, P.NA a k * P.Wa k d) + P.Bp b d) + ∑ e : Fin 256, P.X a b e * P.We e d) + P.b1 d) 0

/-- The updated edge (a, b), feature d. -/
def lat (P : Params) (a b : Fin 512) (d : Fin 128) : EReal :=
  max ((∑ e : Fin 128, hid P a b e * P.W2 e d) + P.b2 d) 0

/-- Row r of a 512-row matrix band that starts at row o. -/
def bandRow (o n : Nat) (h : o + n ≤ 512) (k : Fin n) : Fin 512 := ⟨o + k.val, by have := k.isLt; omega⟩

/-- The parameters read off the two programs' argument arrays: the weight bands are rows 0–127, 128–255 and
    256–511 of the first layer's matrix. -/
def mkP (x0 : (⟨3, ![512, 512, 256]⟩ : Shape).Idx → EReal) (x1 x2 x3 : (⟨2, ![512, 128]⟩ : Shape).Idx → EReal)
    (x4 : (⟨1, ![128]⟩ : Shape).Idx → EReal) (x5 : (⟨2, ![128, 128]⟩ : Shape).Idx → EReal)
    (x6 : (⟨1, ![128]⟩ : Shape).Idx → EReal) : Params where
  X a b e := x0 (ix3 a b e)
  NA a k := x1 (ix2 a k)
  Wa k d := x3 (ix2 (bandRow 0 128 (by omega) k) d)
  Bp b d := ∑ k : Fin 128, x2 (ix2 b k) * x3 (ix2 (bandRow 128 128 (by omega) k) d)
  We e d := x3 (ix2 (bandRow 256 256 (by omega) e) d)
  b1 d := x4 (ix1 d)
  W2 e d := x5 (ix2 e d)
  b2 d := x6 (ix1 d)

/-- The updated edges as an array. -/
def latArr (P : Params) : (⟨3, ![512, 512, 128]⟩ : Shape).Idx → EReal := fun i => lat P (i 0) (i 1) (i 2)

/-- The a-nodes' incoming sums as an array: over b. -/
def sumAArr (P : Params) : (⟨2, ![512, 128]⟩ : Shape).Idx → EReal := fun i => ∑ b : Fin 512, lat P (i 0) b (i 1)

/-- The b-nodes' incoming sums as an array: over a. -/
def sumBArr (P : Params) : (⟨2, ![512, 128]⟩ : Shape).Idx → EReal := fun i => ∑ a : Fin 512, lat P a (i 0) (i 1)

/-- Row r of the t-th group of 16 consecutive rows. -/
def groupRow (t : Fin 32) (r : Fin 16) : Fin 512 := ⟨16 * t.val + r.val, by have := t.isLt; have := r.isLt; omega⟩

/-- The partial sums over each group of 16 consecutive values of a. -/
def partBArr (P : Params) : (⟨3, ![32, 512, 128]⟩ : Shape).Idx → EReal :=
  fun i => ∑ r : Fin 16, lat P (groupRow (i 0) r) (i 1) (i 2)

/-- A sum over 512 values is the sum, over the 32 groups of 16 consecutive values, of the groups' sums. -/
theorem sum_groups {M : Type*} [AddCommMonoid M] (f : Fin 512 → M) :
    (∑ t : Fin 32, ∑ r : Fin 16, f (groupRow t r)) = ∑ a : Fin 512, f a := by
  rw [← Fintype.sum_prod_type']
  refine Fintype.sum_equiv (finProdFinEquiv (m := 32) (n := 16)) _ _ fun x => ?_
  refine congrArg f (Fin.ext ?_)
  show 16 * x.1.val + x.2.val = x.2.val + 16 * x.1.val
  omega

/-- The partial sums add up to the b-nodes' sums. -/
theorem sum_partB (P : Params) (q : Fin 512) (d : Fin 128) :
    (∑ t : Fin 32, partBArr P (ix3 t q d)) = sumBArr P (ix2 q d) :=
  sum_groups fun a => lat P a q d

/-- A sum over 256 values is the sum over its first 128 plus the sum over its last 128. -/
theorem sum_halves {M : Type*} [AddCommMonoid M] (f : Fin 256 → M) :
    (∑ k : Fin 128, f (⟨k.val, by have := k.isLt; omega⟩ : Fin 256))
      + (∑ k : Fin 128, f (⟨128 + k.val, by have := k.isLt; omega⟩ : Fin 256)) = ∑ e : Fin 256, f e := by
  have h := Fin.sum_univ_add (a := 128) (b := 128) (f := (f : Fin (128 + 128) → M))
  rw [show (∑ e : Fin 256, f e) = ∑ e : Fin (128 + 128), (f : Fin (128 + 128) → M) e from rfl, h]
  refine congrArg₂ (· + ·) (Finset.sum_congr rfl fun k _ => congrArg f (Fin.ext rfl))
    (Finset.sum_congr rfl fun k _ => congrArg f (Fin.ext rfl))

end Cert.EdgeNet

end
-- ==== Proof.KerP.lean ====
/-
  The edge update's parameters as the kernel's region finds them: the edge and a-node features and the second
  layer's weights are argument arrays; the two weight bands, the b-nodes' projection and the two biases (as
  one-row matrices) are arrays the host lines before the region computed.
-/
import proofs.«150146_j83210696393444_2_alg».proof.Proof.Gen.KernelIdeal.Frame
import proofs.«150146_j83210696393444_2_alg».proof.Proof.Spec

noncomputable section

namespace Cert.KernelIdeal.Bridge

open Cert.KernelIdeal Cert.KernelIdeal.Gen Idealize.ShloMosaic Idealize.ShloMosaic.ValueIdx Idealize.SL.Sem

variable (m : (ℓ : Loc nD τ sig) → Buf (Elt Ideal) ℓ)

/-- The parameters read off the arrays at the region's entry. -/
def kerP (c : Dev nD) : Cert.EdgeNet.Params where
  X a b e := V m c main_arg0 (ix3 a b e)
  NA a k := V m c main_arg1 (ix2 a k)
  Wa k d := V m c main_v0 (ix2 k d)
  Bp b d := V m c main_v3 (ix2 b d)
  We e d := V m c main_v2 (ix2 e d)
  b1 d := V m c main_v4 (ix2 (0 : Fin 1) d)
  W2 e d := V m c main_arg5 (ix2 e d)
  b2 d := V m c main_v5 (ix2 (0 : Fin 1) d)

end Cert.KernelIdeal.Bridge

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.Payload.lean ====
/-
  What the kernel's body computes on one tile of 16 consecutive values of a, entry by entry.

  A tile t holds the rows groupRow t p (p < 16) of the edge and a-node features, and the whole of every other
  array. The body's first part is the hidden layer on the tile, its second the updated edges, and the two
  reductions are the sums of the updated edges over b (one per row of the tile) and over the tile's 16 rows.
  A matrix-unit product into a zero accumulator is a plain sum over the contracted axis; the contraction over the
  256 edge features is done as two contractions over its halves; a change of float format is the identity.
-/
import proofs.«150146_j83210696393444_2_alg».proof.Proof.Gen.KernelIdeal.Skeleton
import proofs.«150146_j83210696393444_2_alg».proof.Proof.Spec
import proofs.«150146_j83210696393444_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bridge

open Cert.KernelIdeal Cert.KernelIdeal.Gen Idealize.ShloMosaic Idealize.ShloMosaic.ValueIdx Cert.EdgeNet

/-- The first 128 of 256 features. -/
def loHalf (k : Fin 128) : Fin 256 := ⟨k.val, by have := k.isLt; omega⟩
/-- The last 128 of 256 features. -/
def hiHalf (k : Fin 128) : Fin 256 := ⟨128 + k.val, by have := k.isLt; omega⟩

/-- Row `512·p + q` of the 8192-row flattening of a 16 × 512 grid of rows. -/
def flatRow (p : Fin 16) (q : Fin 512) : Fin 8192 := ⟨512 * p.val + q.val, by have := p.isLt; have := q.isLt; omega⟩

section Layout
variable {α : Type}

/-- Flattening `[16, 512, 128]` to `[8192, 128]` puts `(p, q, k)` at `(512·p + q, k)`. -/
theorem flatten_apply (x : (⟨3, ![16, 512, 128]⟩ : Shape).Idx → α)
    (h : (⟨3, ![16, 512, 128]⟩ : Shape).ShapeCasts ⟨2, ![8192, 128]⟩) (p : Fin 16) (q : Fin 512) (k : Fin 128) :
    shapeCast ⟨2, ![8192, 128]⟩ x h (ix2 (flatRow p q) k) = x (ix3 p q k) :=
  shapeCast_apply x h _ _ (by
    rw [Shape.rowMajor_val_three, Shape.rowMajor_val_two]
    show (p.val * 512 + q.val) * 128 + k.val = (512 * p.val + q.val) * 128 + k.val
    omega)

/-- Unflattening `[8192, 128]` to `[16, 512, 128]` reads `(p, q, d)` at `(512·p + q, d)`. -/
theorem unflatten_apply (y : (⟨2, ![8192, 128]⟩ : Shape).Idx → α)
    (h : (⟨2, ![8192, 128]⟩ : Shape).ShapeCasts ⟨3, ![16, 512, 128]⟩) (p : Fin 16) (q : Fin 512) (d : Fin 128) :
    shapeCast ⟨3, ![16, 512, 128]⟩ y h (ix3 p q d) = y (ix2 (flatRow p q) d) :=
  shapeCast_apply y h _ _ (by
    rw [Shape.rowMajor_val_three, Shape.rowMajor_val_two]
    show (512 * p.val + q.val) * 128 + d.val = (p.val * 512 + q.val) * 128 + d.val
    omega)

/-- A `[1, 128]` row cast to `[1, 1, 128]` and broadcast over `[16, 512, 128]` reads the row at the last coordinate. -/
theorem biasRow_apply (v : (⟨2, ![1, 128]⟩ : Shape).Idx → α)
    (h0 : (⟨2, ![1, 128]⟩ : Shape).ShapeCasts ⟨2, ![1, 128]⟩)
    (h1 : (⟨2, ![1, 128]⟩ : Shape).ShapeCasts ⟨3, ![1, 1, 128]⟩)
    (h2 : (⟨3, ![1, 1, 128]⟩ : Shape).Broadcasts ⟨3, ![16, 512, 128]⟩) (p : Fin 16) (q : Fin 512) (d : Fin 128) :
    broadcastTo ⟨3, ![16, 512, 128]⟩ (shapeCast ⟨3, ![1, 1, 128]⟩ (shapeCast ⟨2, ![1, 128]⟩ v h0) h1) h2 (ix3 p q d)
      = v (ix2 (0 : Fin 1) d) := by
  refine (broadcastTo_apply _ h2 (ix3 p q d) (ix3 (0 : Fin 1) (0 : Fin 1) d) fun a => ?_).trans ?_
  · match a with
    | ⟨0, _⟩ => rfl
    | ⟨1, _⟩ => rfl
    | ⟨2, _⟩ => rfl
  · refine (shapeCast_ab_1ab_apply _ h1 (0 : Fin 1) (0 : Fin 1) d).trans ?_
    rw [shapeCast_self]

/-- A `[16, 128]` matrix cast to `[16, 1, 128]` and broadcast over `[16, 512, 128]` reads `(p, d)` at `(p, q, d)`. -/
theorem nodeTerm_apply (v : (⟨2, ![16, 128]⟩ : Shape).Idx → α)
    (h1 : (⟨2, ![16, 128]⟩ : Shape).ShapeCasts ⟨3, ![16, 1, 128]⟩)
    (h2 : (⟨3, ![16, 1, 128]⟩ : Shape).Broadcasts ⟨3, ![16, 512, 128]⟩) (p : Fin 16) (q : Fin 512) (d : Fin 128) :
    broadcastTo ⟨3, ![16, 512, 128]⟩ (shapeCast ⟨3, ![16, 1, 128]⟩ v h1) h2 (ix3 p q d) = v (ix2 p d) := by
  refine (broadcastTo_apply _ h2 (ix3 p q d) (ix3 p (0 : Fin 1) d) fun a => ?_).trans ?_
  · match a with
    | ⟨0, _⟩ => rfl
    | ⟨1, _⟩ => rfl
    | ⟨2, _⟩ => rfl
  · exact shapeCast_apply v h1 _ _ (by
      rw [Shape.rowMajor_val_three, Shape.rowMajor_val_two]
      show p.val * 128 + d.val = (p.val * 1 + 0) * 128 + d.val
      omega)

/-- A `[512, 128]` matrix cast to `[1, 512, 128]` and broadcast over `[16, 512, 128]` reads `(q, d)` at `(p, q, d)`. -/
theorem rowTerm_apply (v : (⟨2, ![512, 128]⟩ : Shape).Idx → α)
    (h0 : (⟨2, ![512, 128]⟩ : Shape).ShapeCasts ⟨2, ![512, 128]⟩)
    (h1 : (⟨2, ![512, 128]⟩ : Shape).ShapeCasts ⟨3, ![1, 512, 128]⟩)
    (h2 : (⟨3, ![1, 512, 128]⟩ : Shape).Broadcasts ⟨3, ![16, 512, 128]⟩) (p : Fin 16) (q : Fin 512) (d : Fin 128) :
    broadcastTo ⟨3, ![16, 512, 128]⟩ (shapeCast ⟨3, ![1, 512, 128]⟩ (shapeCast ⟨2, ![512, 128]⟩ v h0) h1) h2 (ix3 p q d)
      = v (ix2 q d) := by
  refine (broadcastTo_apply _ h2 (ix3 p q d) (ix3 (0 : Fin 1) q d) fun a => ?_).trans ?_
  · match a with
    | ⟨0, _⟩ => rfl
    | ⟨1, _⟩ => rfl
    | ⟨2, _⟩ => rfl
  · refine (shapeCast_ab_1ab_apply _ h1 (0 : Fin 1) q d).trans ?_
    rw [shapeCast_self]

end Layout

/-- A matrix-unit product of the flattened `[16, 512, 128]` operand with a `128 × 128` matrix into a zero
    accumulator: at row `512·p + q`, column `d`, the sum over `k` of `x (p, q, k) · w (k, d)`. -/
theorem flatDot_row {φ₁ φ₂ : FTy} (x : FVec Ideal S16x512x128 φ₁) (w : FVec Ideal S128x128 φ₂)
    (p : Fin 16) (q : Fin 512) (d : Fin 128) :
    matmul dot_S8192x128_S128x128_S8192x128_1_0_0_1_n_n none
        (shapeCast S8192x128 x shapeCasts_S16x512x128_S8192x128) w (constant (F := Ideal) S8192x128 .f32 0x00000000#32)
        (ix2 (flatRow p q) d)
      = ∑ k : Fin 128, x (ix3 p q k) * w (ix2 k d) := by
  refine (Cert.PlainDot.matmul_zero_apply 8192 128 128 none _ w (ix2 (flatRow p q) d)).trans ?_
  exact Finset.sum_congr rfl fun k _ => congrArg (· * w (ix2 k d)) (flatten_apply x _ p q k)

/-- The same product unflattened to `[16, 512, 128]`, at `(p, q, d)`. -/
theorem flatDot_apply {φ₁ φ₂ : FTy} (x : FVec Ideal S16x512x128 φ₁) (w : FVec Ideal S128x128 φ₂)
    (p : Fin 16) (q : Fin 512) (d : Fin 128) :
    shapeCast S16x512x128
        (matmul dot_S8192x128_S128x128_S8192x128_1_0_0_1_n_n none
          (shapeCast S8192x128 x shapeCasts_S16x512x128_S8192x128) w (constant (F := Ideal) S8192x128 .f32 0x00000000#32))
        shapeCasts_S8192x128_S16x512x128 (ix3 p q d)
      = ∑ k : Fin 128, x (ix3 p q k) * w (ix2 k d) :=
  (unflatten_apply _ _ p q d).trans (flatDot_row x w p q d)

/-- The contraction over the 256 edge features as the kernel does it: a zero splat plus the product of the first
    128 features with rows 0–127 of the weights plus the product of the last 128 with rows 128–255, unflattened. -/
theorem edgeTerm_apply {φ₁ φ₂ : FTy} (xlo xhi : FVec Ideal S16x512x128 φ₁) (w : FVec Ideal S256x128 φ₂)
    (p : Fin 16) (q : Fin 512) (d : Fin 128) :
    shapeCast S16x512x128
        (addf
          (addf (broadcast S8192x128 (Scalar.ofBits (F := Ideal) .f32 0x00000000#32))
            (matmul dot_S8192x128_S128x128_S8192x128_1_0_0_1_n_n none
              (shapeCast S8192x128 xlo shapeCasts_S16x512x128_S8192x128)
              (extractStridedSlice S128x128 ![0, 0] w slices_S256x128_o0_0_S128x128)
              (constant (F := Ideal) S8192x128 .f32 0x00000000#32)))
          (matmul dot_S8192x128_S128x128_S8192x128_1_0_0_1_n_n none
            (shapeCast S8192x128 xhi shapeCasts_S16x512x128_S8192x128)
            (extractStridedSlice S128x128 ![128, 0] w slices_S256x128_o128_0_S128x128)
            (constant (F := Ideal) S8192x128 .f32 0x00000000#32)))
        shapeCasts_S8192x128_S16x512x128 (ix3 p q d)
      = (∑ k : Fin 128, xlo (ix3 p q k) * w (ix2 (loHalf k) d)) + ∑ k : Fin 128, xhi (ix3 p q k) * w (ix2 (hiHalf k) d) := by
  refine (unflatten_apply _ _ p q d).trans ?_
  refine congrArg₂ (· + ·) ((congrArg₂ (· + ·) Ideal.ofBits_zero_f32 (flatDot_row xlo _ p q d)).trans (zero_add _))
    (flatDot_row xhi _ p q d) |>.trans ?_
  refine congrArg₂ (· + ·)
    (Finset.sum_congr rfl fun k _ => congrArg (xlo (ix3 p q k) * ·)
      (slice2_axis0_apply 0 w slices_S256x128_o0_0_S128x128 k d (loHalf k) (Nat.zero_add _).symm))
    (Finset.sum_congr rfl fun k _ => congrArg (xhi (ix3 p q k) * ·)
      (slice2_axis0_apply 128 w slices_S256x128_o128_0_S128x128 k d (hiHalf k) rfl))

/-- The body's first part on tile `t`: the hidden layer. -/
theorem pay4_eq (P : Params) (t : Fin 32)
    (v0 : Vec Ideal S16x128 .f32) (v2 : Vec Ideal S128x128 .f32) (v6 : Vec Ideal S256x128 .f32)
    (v10 v16 : Vec Ideal S16x512x128 .f32) (v23 : Vec Ideal S512x128 .f32) (v31 : Vec Ideal S1x128 .f32)
    (h0 : ∀ (p : Fin 16) (k : Fin 128), v0 (ix2 p k) = P.NA (groupRow t p) k)
    (h2 : ∀ (k d : Fin 128), v2 (ix2 k d) = P.Wa k d)
    (h6 : ∀ (e : Fin 256) (d : Fin 128), v6 (ix2 e d) = P.We e d)
    (h10 : ∀ (p : Fin 16) (q : Fin 512) (k : Fin 128), v10 (ix3 p q k) = P.X (groupRow t p) q (loHalf k))
    (h16 : ∀ (p : Fin 16) (q : Fin 512) (k : Fin 128), v16 (ix3 p q k) = P.X (groupRow t p) q (hiHalf k))
    (h23 : ∀ (q : Fin 512) (d : Fin 128), v23 (ix2 q d) = P.Bp q d)
    (h31 : ∀ d : Fin 128, v31 (ix2 (0 : Fin 1) d) = P.b1 d)
    (p : Fin 16) (q : Fin 512) (d : Fin 128) :
    k0_pay4 (F := Ideal) v0 v2 v6 v10 v16 v23 v31 (ix3 p q d) = hid P (groupRow t p) q d := by
  -- the edge weights after the identity cast and the change of format
  have hw : ∀ (e : Fin 256) (c : Fin 128),
      (truncf .bf16 (shapeCast S256x128 (v6 : FVec Ideal S256x128 .f32) shapeCasts_S256x128_S256x128) bitsLt_bf16_f32
        : FVec Ideal S256x128 .bf16) (ix2 e c) = P.We e c := fun e c =>
    (congrFun (shapeCast_self (v6 : FVec Ideal S256x128 .f32) shapeCasts_S256x128_S256x128) (ix2 e c)).trans (h6 e c)
  unfold hid
  refine congrArg₂ max (congrArg₂ (· + ·) (congrArg₂ (· + ·) (congrArg₂ (· + ·) ?_ ?_) ?_) ?_) Ideal.ofBits_zero_f32
  · -- the a-node features times their weight band
    refine (nodeTerm_apply _ shapeCasts_S16x128_S16x1x128 broadcasts_S16x1x128_S16x512x128 p q d).trans ?_
    refine (Cert.PlainDot.matmul_zero_apply 16 128 128 none _ _ (ix2 p d)).trans ?_
    exact Finset.sum_congr rfl fun k _ => congrArg₂ (· * ·) (h0 p k)
      ((congrFun (shapeCast_self (v2 : FVec Ideal S128x128 .f32) shapeCasts_S128x128_S128x128) (ix2 k d)).trans (h2 k d))
  · -- the b-nodes' projected features
    exact (rowTerm_apply v23 shapeCasts_S512x128_S512x128 shapeCasts_S512x128_S1x512x128
      broadcasts_S1x512x128_S16x512x128 p q d).trans (h23 q d)
  · -- the edge features times their weight band, by halves
    refine (edgeTerm_apply (truncf .bf16 (v10 : FVec Ideal S16x512x128 .f32) bitsLt_bf16_f32)
      (truncf .bf16 (v16 : FVec Ideal S16x512x128 .f32) bitsLt_bf16_f32) _ p q d).trans ?_
    refine Eq.trans ?_ (sum_halves fun e => P.X (groupRow t p) q e * P.We e d)
    exact congrArg₂ (· + ·)
      (Finset.sum_congr rfl fun k _ => congrArg₂ (· * ·) (h10 p q k) (hw (loHalf k) d))
      (Finset.sum_congr rfl fun k _ => congrArg₂ (· * ·) (h16 p q k) (hw (hiHalf k) d))
  · -- the bias row
    exact (biasRow_apply v31 shapeCasts_S1x128_S1x128 shapeCasts_S1x128_S1x1x128
      broadcasts_S1x1x128_S16x512x128 p q d).trans (h31 d)

/-- The body's second part on tile `t`: the updated edges. -/
theorem pay1_eq (P : Params) (t : Fin 32)
    (v37 : FVec Ideal S16x512x128 .f32) (v39 : Vec Ideal S128x128 .f32) (v44 : Vec Ideal S1x128 .f32)
    (h37 : ∀ (p : Fin 16) (q : Fin 512) (e : Fin 128), v37 (ix3 p q e) = hid P (groupRow t p) q e)
    (h39 : ∀ (e d : Fin 128), v39 (ix2 e d) = P.W2 e d)
    (h44 : ∀ d : Fin 128, v44 (ix2 (0 : Fin 1) d) = P.b2 d)
    (p : Fin 16) (q : Fin 512) (d : Fin 128) :
    k0_pay1 (F := Ideal) v37 v39 v44 (ix3 p q d) = lat P (groupRow t p) q d := by
  have e1 := flatDot_apply (truncf .bf16 v37 bitsLt_bf16_f32) (truncf .bf16 (v39 : FVec Ideal S128x128 .f32) bitsLt_bf16_f32) p q d
  have e2 := biasRow_apply v44 shapeCasts_S1x128_S1x128 shapeCasts_S1x128_S1x1x128 broadcasts_S1x1x128_S16x512x128 p q d
  have e3 : (∑ k : Fin 128, (truncf .bf16 v37 bitsLt_bf16_f32 : FVec Ideal S16x512x128 .bf16) (ix3 p q k)
        * (truncf .bf16 (v39 : FVec Ideal S128x128 .f32) bitsLt_bf16_f32 : FVec Ideal S128x128 .bf16) (ix2 k d))
      = ∑ e : Fin 128, hid P (groupRow t p) q e * P.W2 e d :=
    Finset.sum_congr rfl fun k _ => congrArg₂ (· * ·) (h37 p q k) (h39 k d)
  unfold lat
  exact congrArg₂ max (congrArg₂ (· + ·) (e1.trans e3) (e2.trans (h44 d))) Ideal.ofBits_zero_f32

/-- The sum over b of the tile's updated edges, one per row of the tile. -/
theorem pay2_eq (P : Params) (t : Fin 32)
    (v37 : FVec Ideal S16x512x128 .f32) (v39 : Vec Ideal S128x128 .f32) (v44 : Vec Ideal S1x128 .f32)
    (h37 : ∀ (p : Fin 16) (q : Fin 512) (e : Fin 128), v37 (ix3 p q e) = hid P (groupRow t p) q e)
    (h39 : ∀ (e d : Fin 128), v39 (ix2 e d) = P.W2 e d)
    (h44 : ∀ d : Fin 128, v44 (ix2 (0 : Fin 1) d) = P.b2 d)
    (p : Fin 16) (d : Fin 128) :
    k0_pay2 (F := Ideal) v37 v39 v44 (ix2 p d) = ∑ q : Fin 512, lat P (groupRow t p) q d := by
  -- the index the reduction over axis 1 inserts coordinate `k` into
  have hl : ∀ k : Fin 512, reduces_S16x512x128_S16x128.lift (ix2 p d) k = ix3 p k d := fun k =>
    funext fun a => by
      match a with
      | ⟨0, _⟩ => exact Fin.ext rfl
      | ⟨1, _⟩ => exact Fin.ext rfl
      | ⟨2, _⟩ => exact Fin.ext rfl
  refine (Ideal.multiReduction_add_single (k0_pay1 (F := Ideal) v37 v39 v44) _ reduces_S16x512x128_S16x128
    (.inl rfl) rfl (ix2 p d)).trans ?_
  show (∑ k : Fin 512, _) = _
  exact Finset.sum_congr rfl fun k _ =>
    (congrArg (k0_pay1 (F := Ideal) v37 v39 v44) (hl k)).trans (pay1_eq P t v37 v39 v44 h37 h39 h44 p k d)

/-- The sum over the tile's 16 rows of its updated edges. -/
theorem pay3_eq (P : Params) (t : Fin 32)
    (v37 : FVec Ideal S16x512x128 .f32) (v39 : Vec Ideal S128x128 .f32) (v44 : Vec Ideal S1x128 .f32)
    (h37 : ∀ (p : Fin 16) (q : Fin 512) (e : Fin 128), v37 (ix3 p q e) = hid P (groupRow t p) q e)
    (h39 : ∀ (e d : Fin 128), v39 (ix2 e d) = P.W2 e d)
    (h44 : ∀ d : Fin 128, v44 (ix2 (0 : Fin 1) d) = P.b2 d)
    (q : Fin 512) (d : Fin 128) :
    k0_pay3 (F := Ideal) v37 v39 v44 (ix3 (0 : Fin 1) q d) = ∑ p : Fin 16, lat P (groupRow t p) q d := by
  -- the index the reduction over axis 0 inserts coordinate `k` into
  have hl : ∀ k : Fin 16, reduces_S16x512x128_S512x128.lift (ix2 q d) k = ix3 k q d := fun k =>
    funext fun a => by
      match a with
      | ⟨0, _⟩ => exact Fin.ext rfl
      | ⟨1, _⟩ => exact Fin.ext rfl
      | ⟨2, _⟩ => exact Fin.ext rfl
  unfold k0_pay3
  refine (shapeCast_ab_1ab_apply _ shapeCasts_S512x128_S1x512x128 (0 : Fin 1) q d).trans ?_
  refine (Ideal.multiReduction_add_single (k0_pay1 (F := Ideal) v37 v39 v44) _ reduces_S16x512x128_S512x128
    (.inl rfl) rfl (ix2 q d)).trans ?_
  show (∑ k : Fin 16, _) = _
  exact Finset.sum_congr rfl fun k _ =>
    (congrArg (k0_pay1 (F := Ideal) v37 v39 v44) (hl k)).trans (pay1_eq P t v37 v39 v44 h37 h39 h44 k q d)

end Cert.KernelIdeal.Bridge

end
-- ==== Proof.Blocks.lean ====
/-
  From the tiles to the whole arrays. Tile t of each output is what the body leaves from tile t of the edge and
  a-node features and the whole of every other array; the 32 tiles cover each output array, so each output array
  is one function of the region-entry arrays: the updated edges, their sums over b, and their partial sums over
  each group of 16 consecutive values of a.
-/
import proofs.«150146_j83210696393444_2_alg».proof.Proof.KerP
import proofs.«150146_j83210696393444_2_alg».proof.Proof.Payload
import Idealize.ShloMosaic.Lib.Pipeline.Value

noncomputable section

namespace Cert.KernelIdeal.Bridge

open Cert.KernelIdeal Cert.KernelIdeal.Gen Idealize.ShloMosaic Idealize.ShloMosaic.ValueIdx Idealize.SL.Sem Cert.EdgeNet
open Idealize.ShloMosaic.Pipeline (Dat)

variable (m : (ℓ : Loc nD τ sig) → Buf (Elt Ideal) ℓ)

namespace Blocks

/-! ## One tile, over arbitrary blocks -/

theorem zeroOffset2 : (![0, 0] : Fin 2 → Nat) = fun _ => 0 := funext fun a => by fin_cases a <;> rfl
theorem zeroOffset3 : (![0, 0, 0] : Fin 3 → Nat) = fun _ => 0 := funext fun a => by fin_cases a <;> rfl

/-- The first load of the edge block reads the first 128 features. -/
theorem ld_lo (x0 : Vec Ideal S16x512x256 .f32) (p : Fin 16) (q : Fin 512) (k : Fin 128) :
    View.ld x0 r0_3 (ix3 p q k) = x0 (ix3 p q (loHalf k)) := by
  refine congrArg x0 (funext fun a => Fin.ext ?_)
  match a with
  | ⟨0, _⟩ => show 0 + 1 * p.val = p.val; omega
  | ⟨1, _⟩ => show 0 + 1 * q.val = q.val; omega
  | ⟨2, _⟩ => show 0 + 1 * k.val = k.val; omega

/-- The second load of the edge block reads the last 128 features. -/
theorem ld_hi (x0 : Vec Ideal S16x512x256 .f32) (p : Fin 16) (q : Fin 512) (k : Fin 128) :
    View.ld x0 r0_4 (ix3 p q k) = x0 (ix3 p q (hiHalf k)) := by
  refine congrArg x0 (funext fun a => Fin.ext ?_)
  match a with
  | ⟨0, _⟩ => show 0 + 1 * p.val = p.val; omega
  | ⟨1, _⟩ => show 0 + 1 * q.val = q.val; omega
  | ⟨2, _⟩ => show 128 + 1 * k.val = 128 + k.val; omega

section Tile

variable (P : Params) (t : Fin 32)
  (x0 : Vec Ideal S16x512x256 .f32) (x1 : Vec Ideal S16x128 .f32) (x2 : Vec Ideal S512x128 .f32)
  (x3 : Vec Ideal S128x128 .f32) (x4 : Vec Ideal S256x128 .f32) (x5 : Vec Ideal S1x128 .f32)
  (x6 : Vec Ideal S128x128 .f32) (x7 : Vec Ideal S1x128 .f32)
  (h0 : ∀ (p : Fin 16) (q : Fin 512) (e : Fin 256), x0 (ix3 p q e) = P.X (groupRow t p) q e)
  (h1 : ∀ (p : Fin 16) (k : Fin 128), x1 (ix2 p k) = P.NA (groupRow t p) k)
  (h2 : ∀ (q : Fin 512) (d : Fin 128), x2 (ix2 q d) = P.Bp q d)
  (h3 : ∀ (k d : Fin 128), x3 (ix2 k d) = P.Wa k d)
  (h4 : ∀ (e : Fin 256) (d : Fin 128), x4 (ix2 e d) = P.We e d)
  (h5 : ∀ d : Fin 128, x5 (ix2 (0 : Fin 1) d) = P.b1 d)
  (h6 : ∀ (e d : Fin 128), x6 (ix2 e d) = P.W2 e d)
  (h7 : ∀ d : Fin 128, x7 (ix2 (0 : Fin 1) d) = P.b2 d)

include h0 h1 h2 h3 h4 h5 in
/-- The hidden layer on a tile whose blocks hold rows 16·t + p of the edge and a-node features and the whole
    of every other array. -/
theorem hid_tile (p : Fin 16) (q : Fin 512) (d : Fin 128) :
    k0_pay4 (F := Ideal) (View.ld x1 r0_0) (View.ld x3 r0_1) (View.ld x4 r0_2) (View.ld x0 r0_3) (View.ld x0 r0_4)
      (View.ld x2 r0_5) (View.ld x5 r0_6) (ix3 p q d) = hid P (groupRow t p) q d :=
  pay4_eq P t _ _ _ _ _ _ _
    (fun p k => (congrFun (View.ld_unit_zero (S := S16x128) zeroOffset2 _ x1) (ix2 p k)).trans (h1 p k))
    (fun k d => (congrFun (View.ld_unit_zero (S := S128x128) zeroOffset2 _ x3) (ix2 k d)).trans (h3 k d))
    (fun e d => (congrFun (View.ld_unit_zero (S := S256x128) zeroOffset2 _ x4) (ix2 e d)).trans (h4 e d))
    (fun p q k => (ld_lo x0 p q k).trans (h0 p q (loHalf k)))
    (fun p q k => (ld_hi x0 p q k).trans (h0 p q (hiHalf k)))
    (fun q d => (congrFun (View.ld_unit_zero (S := S512x128) zeroOffset2 _ x2) (ix2 q d)).trans (h2 q d))
    (fun d => (congrFun (View.ld_unit_zero (S := S1x128) zeroOffset2 _ x5) (ix2 (0 : Fin 1) d)).trans (h5 d))
    p q d

include h0 h1 h2 h3 h4 h5 h6 h7

/-- What the body leaves in the updated-edges buffer on such a tile. -/
theorem out8_tile (p : Fin 16) (q : Fin 512) (d : Fin 128) :
    out0_8 (F := Ideal) x0 x1 x2 x3 x4 x5 x6 x7 (ix3 p q d) = lat P (groupRow t p) q d := by
  unfold out0_8
  rw [View.canon_unit_zero zeroOffset3]
  exact pay1_eq P t _ _ _ (hid_tile P t x0 x1 x2 x3 x4 x5 h0 h1 h2 h3 h4 h5)
    (fun e d => (congrFun (View.ld_unit_zero (S := S128x128) zeroOffset2 _ x6) (ix2 e d)).trans (h6 e d))
    (fun d => (congrFun (View.ld_unit_zero (S := S1x128) zeroOffset2 _ x7) (ix2 (0 : Fin 1) d)).trans (h7 d)) p q d

/-- What the body leaves in the a-nodes' sums buffer on such a tile. -/
theorem out9_tile (p : Fin 16) (d : Fin 128) :
    out0_9 (F := Ideal) x0 x1 x2 x3 x4 x5 x6 x7 (ix2 p d) = ∑ q : Fin 512, lat P (groupRow t p) q d := by
  unfold out0_9
  rw [View.canon_unit_zero zeroOffset2]
  exact pay2_eq P t _ _ _ (hid_tile P t x0 x1 x2 x3 x4 x5 h0 h1 h2 h3 h4 h5)
    (fun e d => (congrFun (View.ld_unit_zero (S := S128x128) zeroOffset2 _ x6) (ix2 e d)).trans (h6 e d))
    (fun d => (congrFun (View.ld_unit_zero (S := S1x128) zeroOffset2 _ x7) (ix2 (0 : Fin 1) d)).trans (h7 d)) p d

/-- What the body leaves in the partial-sums buffer on such a tile. -/
theorem out10_tile (q : Fin 512) (d : Fin 128) :
    out0_10 (F := Ideal) x0 x1 x2 x3 x4 x5 x6 x7 (ix3 (0 : Fin 1) q d) = ∑ p : Fin 16, lat P (groupRow t p) q d := by
  unfold out0_10
  rw [View.canon_unit_zero zeroOffset3]
  exact pay3_eq P t _ _ _ (hid_tile P t x0 x1 x2 x3 x4 x5 h0 h1 h2 h3 h4 h5)
    (fun e d => (congrFun (View.ld_unit_zero (S := S128x128) zeroOffset2 _ x6) (ix2 e d)).trans (h6 e d))
    (fun d => (congrFun (View.ld_unit_zero (S := S1x128) zeroOffset2 _ x7) (ix2 (0 : Fin 1) d)).trans (h7 d)) q d

end Tile

/-! ## The tiles' blocks as rows of the arrays -/

/-- The grid point as a number below 32. -/
abbrev pt (t : Fin cfg0.N) : Fin 32 := Fin.cast N_0 t

/-- The printed index maps, decided over the grid: the edge, a-node and output windows move with the point along
    their first axis; every other window stays at block (0, 0). -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

/-- Tile t of the edge features is rows 16·t + p. -/
theorem blk0_apply (c : Dev nD) (t : Fin cfg0.N) (p : Fin 16) (q : Fin 512) (e : Fin 256) :
    iblk m c 0 t (ix3 p q e) = (kerP m c).X (groupRow (pt t) p) q e := by
  obtain ⟨e0, e1, e2⟩ := idx0 t
  unfold iblk
  rw [View.read_apply, cast_eq]
  show V m c main_arg0 _ = V m c main_arg0 _
  refine congrArg (V m c main_arg0) (funext fun a => Fin.ext ?_)
  match a with
  | ⟨0, _⟩ => show win0_0.index t (0 : Fin 3) * 16 + 1 * p.val = 16 * t.val + p.val; omega
  | ⟨1, _⟩ => show win0_0.index t (1 : Fin 3) * 512 + 1 * q.val = q.val; omega
  | ⟨2, _⟩ => show win0_0.index t (2 : Fin 3) * 256 + 1 * e.val = e.val; omega

/-- Tile t of the a-node features is rows 16·t + p. -/
theorem blk1_apply (c : Dev nD) (t : Fin cfg0.N) (p : Fin 16) (k : Fin 128) :
    iblk m c 1 t (ix2 p k) = (kerP m c).NA (groupRow (pt t) p) k := by
  obtain ⟨e0, e1⟩ := idx1 t
  unfold iblk
  rw [View.read_apply, cast_eq]
  show V m c main_arg1 _ = V m c main_arg1 _
  refine congrArg (V m c main_arg1) (funext fun a => Fin.ext ?_)
  match a with
  | ⟨0, _⟩ => show win0_1.index t (0 : Fin 2) * 16 + 1 * p.val = 16 * t.val + p.val; omega
  | ⟨1, _⟩ => show win0_1.index t (1 : Fin 2) * 128 + 1 * k.val = k.val; omega

/-- Every tile holds the whole of the b-nodes' projection. -/
theorem blk2_apply (c : Dev nD) (t : Fin cfg0.N) (q : Fin 512) (d : Fin 128) :
    iblk m c 2 t (ix2 q d) = (kerP m c).Bp q d := by
  obtain ⟨e0, e1⟩ := idx2 t
  unfold iblk
  rw [View.read_apply, cast_eq]
  show V m c main_v3 _ = V m c main_v3 _
  refine congrArg (V m c main_v3) (funext fun a => Fin.ext ?_)
  match a with
  | ⟨0, _⟩ => show win0_2.index t (0 : Fin 2) * 512 + 1 * q.val = q.val; omega
  | ⟨1, _⟩ => show win0_2.index t (1 : Fin 2) * 128 + 1 * d.val = d.val; omega

/-- Every tile holds the whole of the a-node weight band. -/
theorem blk3_apply (c : Dev nD) (t : Fin cfg0.N) (k d : Fin 128) :
    iblk m c 3 t (ix2 k d) = (kerP m c).Wa k d := by
  obtain ⟨e0, e1⟩ := idx3 t
  unfold iblk
  rw [View.read_apply, cast_eq]
  show V m c main_v0 _ = V m c main_v0 _
  refine congrArg (V m c main_v0) (funext fun a => Fin.ext ?_)
  match a with
  | ⟨0, _⟩ => show win0_3.index t (0 : Fin 2) * 128 + 1 * k.val = k.val; omega
  | ⟨1, _⟩ => show win0_3.index t (1 : Fin 2) * 128 + 1 * d.val = d.val; omega

/-- Every tile holds the whole of the edge weight band. -/
theorem blk4_apply (c : Dev nD) (t : Fin cfg0.N) (e : Fin 256) (d : Fin 128) :
    iblk m c 4 t (ix2 e d) = (kerP m c).We e d := by
  obtain ⟨e0, e1⟩ := idx4 t
  unfold iblk
  rw [View.read_apply, cast_eq]
  show V m c main_v2 _ = V m c main_v2 _
  refine congrArg (V m c main_v2) (funext fun a => Fin.ext ?_)
  match a with
  | ⟨0, _⟩ => show win0_4.index t (0 : Fin 2) * 256 + 1 * e.val = e.val; omega
  | ⟨1, _⟩ => show win0_4.index t (1 : Fin 2) * 128 + 1 * d.val = d.val; omega

/-- Every tile holds the first-layer bias. -/
theorem blk5_apply (c : Dev nD) (t : Fin cfg0.N) (d : Fin 128) :
    iblk m c 5 t (ix2 (0 : Fin 1) d) = (kerP m c).b1 d := by
  obtain ⟨e0, e1⟩ := idx5 t
  unfold iblk
  rw [View.read_apply, cast_eq]
  show V m c main_v4 _ = V m c main_v4 _
  refine congrArg (V m c main_v4) (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 128 + 1 * d.val = d.val; omega

/-- Every tile holds the whole of the second layer's weights. -/
theorem blk6_apply (c : Dev nD) (t : Fin cfg0.N) (e d : Fin 128) :
    iblk m c 6 t (ix2 e d) = (kerP m c).W2 e d := by
  obtain ⟨e0, e1⟩ := idx6 t
  unfold iblk
  rw [View.read_apply, cast_eq]
  show V m c main_arg5 _ = V m c main_arg5 _
  refine congrArg (V m c main_arg5) (funext fun a => Fin.ext ?_)
  match a with
  | ⟨0, _⟩ => show win0_6.index t (0 : Fin 2) * 128 + 1 * e.val = e.val; omega
  | ⟨1, _⟩ => show win0_6.index t (1 : Fin 2) * 128 + 1 * d.val = d.val; omega

/-- Every tile holds the second-layer bias. -/
theorem blk7_apply (c : Dev nD) (t : Fin cfg0.N) (d : Fin 128) :
    iblk m c 7 t (ix2 (0 : Fin 1) d) = (kerP m c).b2 d := by
  obtain ⟨e0, e1⟩ := idx7 t
  unfold iblk
  rw [View.read_apply, cast_eq]
  show V m c main_v5 _ = V m c main_v5 _
  refine congrArg (V m c main_v5) (funext fun a => Fin.ext ?_)
  match a with
  | ⟨0, _⟩ => show win0_7.index t (0 : Fin 2) * 1 + 1 * (0 : Fin 1).val = (0 : Fin 1).val; omega
  | ⟨1, _⟩ => show win0_7.index t (1 : Fin 2) * 128 + 1 * d.val = d.val; omega

/-! ## The updated edges -/

/-- The updated edge depends on its coordinates' values only. -/
theorem lat_congr (P : Params) {a a' b b' : Fin 512} {d d' : Fin 128} (ha : a.val = a'.val) (hb : b.val = b'.val)
    (hd : d.val = d'.val) : lat P a b d = lat P a' b' d' := by
  obtain rfl := Fin.ext ha; obtain rfl := Fin.ext hb; obtain rfl := Fin.ext hd; rfl

/-- What point t writes back of the updated edges is block t of the updated-edges array. -/
theorem flushed8_eq (c : Dev nD) (t : Fin cfg0.N) :
    (dats m 0 c).flushed 8 t = ((cfg0.win 8).blk t).view.read (Elt Ideal) (latArr (kerP m c)) := by
  show (cfg0.win 8).cut (grid0.coords t) ((dats m 0 c).after 8 t) = _
  rw [after0_8]
  obtain ⟨e0, e1, e2⟩ := idx8 t
  funext j
  obtain ⟨p, q, d, rfl⟩ : ∃ (p : Fin 16) (q : Fin 512) (d : Fin 128), j = ix3 p q d := ⟨j 0, j 1, j 2, eq_ix3 j⟩
  rw [View.read_apply, cast_eq]
  refine (out8_tile (kerP m c) (pt t) _ _ _ _ _ _ _ _ (blk0_apply m c t) (blk1_apply m c t) (blk2_apply m c t)
    (blk3_apply m c t) (blk4_apply m c t) (blk5_apply m c t) (blk6_apply m c t) (blk7_apply m c t) p q d).trans ?_
  refine lat_congr _ ?_ ?_ ?_
  · show 16 * t.val + p.val = win0_8.index t (0 : Fin 3) * 16 + 1 * p.val; omega
  · show q.val = win0_8.index t (1 : Fin 3) * 512 + 1 * q.val; omega
  · show d.val = win0_8.index t (2 : Fin 3) * 128 + 1 * d.val; omega

/-- An index of the array is in point t's block iff each coordinate is in the block's range on its axis. -/
theorem mem_blk8 (t : Fin cfg0.N) (i : S512x512x128.Idx) :
    i ∈ ((cfg0.win 8).blk t).view.set ↔ ∀ a : Fin 3, win0_8.index t a * S16x512x128.size a ≤ (i a).val ∧ (i a).val < win0_8.index t a * S16x512x128.size a + S16x512x128.size a := by
  show i ∈ ((View.whole main_v6_0).slice (win0_8.rect t)).set ↔ _
  rw [View.set_slice_whole, Rect.mem_set_unit]
  exact Iff.rfl

/-- Row r of the array is in the block of point r / 16. -/
theorem cover8 (i : S512x512x128.Idx) :
    ∃ t : Fin cfg0.N, (cfg0.win 8).flush t = true ∧ i ∈ ((cfg0.win 8).blk t).view.set := by
  have hi0 : (i 0).val < 512 := (i 0).isLt
  have hi1 : (i 1).val < 512 := (i 1).isLt
  have hi2 : (i 2).val < 128 := (i 2).isLt
  obtain ⟨t, ht⟩ : ∃ t : Fin cfg0.N, t.val = (i 0).val / 16 :=
    ⟨⟨(i 0).val / 16, by rw [show cfg0.N = 32 from N_0]; omega⟩, rfl⟩
  obtain ⟨e0, e1, e2⟩ := idx8 t
  refine ⟨t, flush0_8 t, ?_⟩
  rw [mem_blk8]
  intro a
  match a with
  | ⟨0, _⟩ => show win0_8.index t (0 : Fin 3) * 16 ≤ (i 0).val ∧ (i 0).val < win0_8.index t (0 : Fin 3) * 16 + 16; omega
  | ⟨1, _⟩ => show win0_8.index t (1 : Fin 3) * 512 ≤ (i 1).val ∧ (i 1).val < win0_8.index t (1 : Fin 3) * 512 + 512; omega
  | ⟨2, _⟩ => show win0_8.index t (2 : Fin 3) * 128 ≤ (i 2).val ∧ (i 2).val < win0_8.index t (2 : Fin 3) * 128 + 128; omega

/-! ## The a-nodes' sums -/

/-- What point t writes back of the a-nodes' sums is block t of the sums array. -/
theorem flushed9_eq (c : Dev nD) (t : Fin cfg0.N) :
    (dats m 0 c).flushed 9 t = ((cfg0.win 9).blk t).view.read (Elt Ideal) (sumAArr (kerP m c)) := by
  show (cfg0.win 9).cut (grid0.coords t) ((dats m 0 c).after 9 t) = _
  rw [after0_9]
  obtain ⟨e0, e1⟩ := idx9 t
  funext j
  obtain ⟨p, d, rfl⟩ : ∃ (p : Fin 16) (d : Fin 128), j = ix2 p d := ⟨j 0, j 1, eq_ix2 j⟩
  rw [View.read_apply, cast_eq]
  refine (out9_tile (kerP m c) (pt t) _ _ _ _ _ _ _ _ (blk0_apply m c t) (blk1_apply m c t) (blk2_apply m c t)
    (blk3_apply m c t) (blk4_apply m c t) (blk5_apply m c t) (blk6_apply m c t) (blk7_apply m c t) p d).trans ?_
  refine Finset.sum_congr rfl fun b _ => lat_congr _ ?_ rfl ?_
  · show 16 * t.val + p.val = win0_9.index t (0 : Fin 2) * 16 + 1 * p.val; omega
  · show d.val = win0_9.index t (1 : Fin 2) * 128 + 1 * d.val; omega

/-- An index of the array is in point t's block iff each coordinate is in the block's range on its axis. -/
theorem mem_blk9 (t : Fin cfg0.N) (i : S512x128.Idx) :
    i ∈ ((cfg0.win 9).blk t).view.set ↔ ∀ a : Fin 2, win0_9.index t a * S16x128.size a ≤ (i a).val ∧ (i a).val < win0_9.index t a * S16x128.size a + S16x128.size a := by
  show i ∈ ((View.whole main_v6_1).slice (win0_9.rect t)).set ↔ _
  rw [View.set_slice_whole, Rect.mem_set_unit]
  exact Iff.rfl

/-- Row r of the array is in the block of point r / 16. -/
theorem cover9 (i : S512x128.Idx) :
    ∃ t : Fin cfg0.N, (cfg0.win 9).flush t = true ∧ i ∈ ((cfg0.win 9).blk t).view.set := by
  have hi0 : (i 0).val < 512 := (i 0).isLt
  have hi1 : (i 1).val < 128 := (i 1).isLt
  obtain ⟨t, ht⟩ : ∃ t : Fin cfg0.N, t.val = (i 0).val / 16 :=
    ⟨⟨(i 0).val / 16, by rw [show cfg0.N = 32 from N_0]; omega⟩, rfl⟩
  obtain ⟨e0, e1⟩ := idx9 t
  refine ⟨t, flush0_9 t, ?_⟩
  rw [mem_blk9]
  intro a
  match a with
  | ⟨0, _⟩ => show win0_9.index t (0 : Fin 2) * 16 ≤ (i 0).val ∧ (i 0).val < win0_9.index t (0 : Fin 2) * 16 + 16; omega
  | ⟨1, _⟩ => show win0_9.index t (1 : Fin 2) * 128 ≤ (i 1).val ∧ (i 1).val < win0_9.index t (1 : Fin 2) * 128 + 128; omega

/-! ## The partial sums -/

/-- What point t writes back of the partial sums is block t of the partial-sums array. -/
theorem flushed10_eq (c : Dev nD) (t : Fin cfg0.N) :
    (dats m 0 c).flushed 10 t = ((cfg0.win 10).blk t).view.read (Elt Ideal) (partBArr (kerP m c)) := by
  show (cfg0.win 10).cut (grid0.coords t) ((dats m 0 c).after 10 t) = _
  rw [after0_10]
  obtain ⟨e0, e1, e2⟩ := idx10 t
  funext j
  obtain ⟨z, q, d, rfl⟩ : ∃ (z : Fin 1) (q : Fin 512) (d : Fin 128), j = ix3 z q d := ⟨j 0, j 1, j 2, eq_ix3 j⟩
  obtain rfl : z = 0 := Subsingleton.elim _ _
  rw [View.read_apply, cast_eq]
  refine (out10_tile (kerP m c) (pt t) _ _ _ _ _ _ _ _ (blk0_apply m c t) (blk1_apply m c t) (blk2_apply m c t)
    (blk3_apply m c t) (blk4_apply m c t) (blk5_apply m c t) (blk6_apply m c t) (blk7_apply m c t) q d).trans ?_
  refine Finset.sum_congr rfl fun r _ => lat_congr _ ?_ ?_ ?_
  · show 16 * t.val + r.val = 16 * (win0_10.index t (0 : Fin 3) * 1 + 1 * (0 : Fin 1).val) + r.val
    have h0 : (0 : Fin 1).val = 0 := rfl
    omega
  · show q.val = win0_10.index t (1 : Fin 3) * 512 + 1 * q.val; omega
  · show d.val = win0_10.index t (2 : Fin 3) * 128 + 1 * d.val; omega

/-- An index of the array is in point t's block iff each coordinate is in the block's range on its axis. -/
theorem mem_blk10 (t : Fin cfg0.N) (i : S32x512x128.Idx) :
    i ∈ ((cfg0.win 10).blk t).view.set ↔ ∀ a : Fin 3, win0_10.index t a * S1x512x128.size a ≤ (i a).val ∧ (i a).val < win0_10.index t a * S1x512x128.size a + S1x512x128.size a := by
  show i ∈ ((View.whole main_v6_2).slice (win0_10.rect t)).set ↔ _
  rw [View.set_slice_whole, Rect.mem_set_unit]
  exact Iff.rfl

/-- Group g of the array is the block of point g. -/
theorem cover10 (i : S32x512x128.Idx) :
    ∃ t : Fin cfg0.N, (cfg0.win 10).flush t = true ∧ i ∈ ((cfg0.win 10).blk t).view.set := by
  have hi0 : (i 0).val < 32 := (i 0).isLt
  have hi1 : (i 1).val < 512 := (i 1).isLt
  have hi2 : (i 2).val < 128 := (i 2).isLt
  obtain ⟨t, ht⟩ : ∃ t : Fin cfg0.N, t.val = (i 0).val :=
    ⟨⟨(i 0).val, by rw [show cfg0.N = 32 from N_0]; omega⟩, rfl⟩
  obtain ⟨e0, e1, e2⟩ := idx10 t
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 512 ≤ (i 1).val ∧ (i 1).val < win0_10.index t (1 : Fin 3) * 512 + 512; omega
  | ⟨2, _⟩ => show win0_10.index t (2 : Fin 3) * 128 ≤ (i 2).val ∧ (i 2).val < win0_10.index t (2 : Fin 3) * 128 + 128; omega

end Blocks

open Blocks

/-- The updated-edges array after the run. -/
theorem final8 (c : Dev nD) : ((dats m 0 c).arrAt 8 cfg0.N : S512x512x128.Idx → EReal) = latArr (kerP m c) :=
  (dats m 0 c).arrAt_eq_of_cover 8 (latArr (kerP m c)) (fun t _ => flushed8_eq m c t) cover8

/-- The a-nodes' sums array after the run. -/
theorem final9 (c : Dev nD) : ((dats m 0 c).arrAt 9 cfg0.N : S512x128.Idx → EReal) = sumAArr (kerP m c) :=
  (dats m 0 c).arrAt_eq_of_cover 9 (sumAArr (kerP m c)) (fun t _ => flushed9_eq m c t) cover9

/-- The partial-sums array after the run. -/
theorem final10 (c : Dev nD) : ((dats m 0 c).arrAt 10 cfg0.N : S32x512x128.Idx → EReal) = partBArr (kerP m c) :=
  (dats m 0 c).arrAt_eq_of_cover 10 (partBArr (kerP m c)) (fun t _ => flushed10_eq m c t) cover10

end Cert.KernelIdeal.Bridge

end
-- ==== Proof.Tail.lean ====
/-
  The node update, shared by both programs: a node's features x are joined with the sum s of its incident updated
  edges, and the 256 joined features go through a two-layer perceptron,
    node(x, s) = max( max( [x | s]·Wn1 + bn1, 0 )·Wn2 + bn2, 0 ).
  Both programs apply exactly these operations to their own sums; the certificate shows the sums equal and never
  opens this function.
-/
import proofs.«150146_j83210696393444_2_alg».proof.Proof.Gen.ReferenceIdeal

noncomputable section

namespace Cert.EdgeNet

open Cert.ReferenceIdeal Cert.ReferenceIdeal.Gen Idealize.ShloMosaic

variable {F : FTy → Type} [FloatOps F]

/-- The node update of features `x` and incident-edge sums `s`. -/
def nodeMlp (x s : (⟨S512x128, .f32⟩ : BufTy).Contents (Elt F)) (wn1 : (⟨S256x128, .f32⟩ : BufTy).Contents (Elt F))
    (bn1 : (⟨S128, .f32⟩ : BufTy).Contents (Elt F)) (wn2 : (⟨S128x128, .f32⟩ : BufTy).Contents (Elt F))
    (bn2 : (⟨S128, .f32⟩ : BufTy).Contents (Elt F)) : (⟨S512x128, .f32⟩ : BufTy).Contents (Elt F) :=
  maximumf (addf (Host.dotGeneral dot_S512x128_S128x128_S512x128_1_0_0_1_n_n none
      (maximumf (addf (Host.dotGeneral dot_S512x256_S256x128_S512x128_1_0_0_1_n_n none
          (concatenate S512x256 1 [⟨S512x128, x⟩, ⟨S512x128, s⟩] concatenates_S512x128_S512x128_S512x256_d1) wn1)
          (broadcastInDim S512x128 ![0, 1] bcast_S1x128_S512x128_0_1 (broadcastInDim S1x128 ![1] bcast_S128_S1x128_1 bn1)))
        (broadcastInDim S512x128 ![] bcast_S_S512x128 (constant S_ .f32 0x00000000#32))) wn2)
      (broadcastInDim S512x128 ![0, 1] bcast_S1x128_S512x128_0_1 (broadcastInDim S1x128 ![1] bcast_S128_S1x128_1 bn2)))
    (broadcastInDim S512x128 ![] bcast_S_S512x128 (constant S_ .f32 0x00000000#32))

end Cert.EdgeNet

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.HostSide.lean ====
/-
  The host lines around the kernel's region. Before it: the three row bands of the first layer's weights, the
  b-nodes' projection NB · Wb, and the two biases as one-row matrices; so the parameters the region finds are the
  ones read off the argument arrays. After it: the sum of the 32 partial sums, and the node update applied to the
  a-node features with the sums over b, and to the b-node features with the sums over a.
-/
import proofs.«150146_j83210696393444_2_alg».proof.Proof.KerP
import proofs.«150146_j83210696393444_2_alg».proof.Proof.Tail
import proofs.«150146_j83210696393444_2_alg».proof.Proof.LibPlainDot
import proofs.«150146_j83210696393444_2_alg».proof.Proof.LibCat
import Idealize.ShloMosaic.Lib.StableHlo.Run
import Idealize.ShloMosaic.Lib.Pipeline.Value
import Idealize.ShloMosaic.Lib.ValueLayout

noncomputable section

namespace Cert.KernelIdeal.Bridge

open Cert.KernelIdeal Cert.KernelIdeal.Gen Idealize.ShloMosaic Idealize.ShloMosaic.ValueIdx Idealize.SL.Sem Cert.EdgeNet
open Idealize.ShloMosaic.StableHlo

variable (m : (ℓ : Loc nD τ sig) → Buf (Elt Ideal) ℓ)

/-! ## Before the region -/

/-- A band of rows cut from a 512-row matrix, read at (k, d), is the matrix at the band's k-th row. -/
private theorem band_read (o n : Nat) (h : o + n ≤ 512) (X : (⟨2, ![512, 128]⟩ : Shape).Idx → EReal)
    (hs : (⟨2, ![512, 128]⟩ : Shape).Slices ![o, 0] ⟨2, ![n, 128]⟩) (k : Fin n) (d : Fin 128) :
    extractStridedSlice ⟨2, ![n, 128]⟩ ![o, 0] X hs (ix2 k d) = X (ix2 (bandRow o n h k) d) :=
  slice2_axis0_apply o X hs k d (bandRow o n h k) rfl

/-- The product of a 512×128 matrix with the band of rows 128–255, read at (b, d): the sum over the band's rows. -/
private theorem proj_read (l X : (⟨2, ![512, 128]⟩ : Shape).Idx → EReal)
    (hs : (⟨2, ![512, 128]⟩ : Shape).Slices ![128, 0] ⟨2, ![128, 128]⟩) (b : Fin 512) (d : Fin 128) :
    Host.dotGeneral (F := Ideal) (φ₁ := .f32) (φ₂ := .f32) (DotDims.plain 512 128 128) none l
        (extractStridedSlice ⟨2, ![128, 128]⟩ ![128, 0] X hs) (ix2 b d)
      = ∑ k : Fin 128, l (ix2 b k) * X (ix2 (bandRow 128 128 (by omega) k) d) := by
  refine (Cert.PlainDot.dotGeneral_apply 512 128 128 none _ l _ (ix2 b d)).trans ?_
  exact Finset.sum_congr rfl fun k _ => congrArg (l (ix2 b k) * ·) (band_read 128 128 (by omega) X hs k d)

/-- What each line before the region leaves: the bands of rows 0–127 and 256–511, the projection, the two one-row biases. -/
private theorem v0_eq (c : Dev nD) :
    V m c main_v0 = extractStridedSlice S128x128 ![0, 0] (m ((c.tc : Thread nD τ).loc main_arg3)) slices_S512x128_S128x128_0_0 := by
  show StableHlo.after hostOps0 (fun b => m (c, b)) (Proc.devRef .tc main_v0) = _
  after_results

private theorem v2_eq (c : Dev nD) :
    V m c main_v2 = extractStridedSlice S256x128 ![256, 0] (m ((c.tc : Thread nD τ).loc main_arg3)) slices_S512x128_S256x128_256_0 := by
  show StableHlo.after hostOps0 (fun b => m (c, b)) (Proc.devRef .tc main_v2) = _
  after_results

private theorem v3_eq (c : Dev nD) :
    V m c main_v3 = Host.dotGeneral (F := Ideal) (φ₁ := .f32) (φ₂ := .f32) dot_S512x128_S128x128_S512x128_1_0_0_1_n_n none
      (m ((c.tc : Thread nD τ).loc main_arg2))
      (extractStridedSlice S128x128 ![128, 0] (m ((c.tc : Thread nD τ).loc main_arg3)) slices_S512x128_S128x128_128_0) := by
  show StableHlo.after hostOps0 (fun b => m (c, b)) (Proc.devRef .tc main_v3) = _
  after_results

private theorem v4_eq (c : Dev nD) :
    V m c main_v4 = shapeCast S1x128 (m ((c.tc : Thread nD τ).loc main_arg4)) shapeCasts_S128_S1x128 := by
  show StableHlo.after hostOps0 (fun b => m (c, b)) (Proc.devRef .tc main_v4) = _
  after_results
  rfl

private theorem v5_eq (c : Dev nD) :
    V m c main_v5 = shapeCast S1x128 (m ((c.tc : Thread nD τ).loc main_arg6)) shapeCasts_S128_S1x128 := by
  show StableHlo.after hostOps0 (fun b => m (c, b)) (Proc.devRef .tc main_v5) = _
  after_results
  rfl

/-- The parameters the region finds are the ones read off the argument arrays. -/
theorem kerP_eq (c : Dev nD) :
    kerP m c = mkP (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := by
  -- field by field: an argument array is as launched; a band reads its row of the weight matrix; the projection is the
  -- sum over the middle band's rows; a one-row bias reads the bias
  unfold kerP mkP
  rw [Params.mk.injEq]
  refine ⟨?_, ?_, ?_, ?_, ?_, ?_, ?_, ?_⟩
  · funext a b e; exact congrFun (V_main_arg0 m c) _
  · funext a k; exact congrFun (V_main_arg1 m c) _
  · funext k d; exact (congrFun (v0_eq m c) _).trans (band_read 0 128 (by omega) _ _ k d)
  · funext b d; exact (congrFun (v3_eq m c) _).trans (proj_read _ _ _ b d)
  · funext e d; exact (congrFun (v2_eq m c) _).trans (band_read 256 256 (by omega) _ _ e d)
  · funext d; exact (congrFun (v4_eq m c) _).trans (shapeCast_a_1a_apply _ _ 0 d)
  · funext e d; exact congrFun (V_main_arg5 m c) _
  · funext d; exact (congrFun (v5_eq m c) _).trans (shapeCast_a_1a_apply _ _ 0 d)

/-! ## After the region -/

/-- The a-nodes' lines over any contents W: the node update of W's a-node features and W's sums over b. Each line's
    result is its operation applied to its operands' contents; composed, they are the node update's own operations. -/
private theorem tail18_of (W : Valuation τ sig (Elt Ideal)) :
    StableHlo.after (List.flatten ([hostOps1, hostOps1_1, hostOps1_2, hostOps1_3, hostOps1_4, hostOps1_5, hostOps1_6, hostOps1_7] : List (List (HloOp τ sig (Elt Ideal))))) W (Proc.devRef .tc main_v18)
      = nodeMlp (F := Ideal) (W (Proc.devRef .tc main_arg1)) (W (Proc.devRef .tc main_v6_1))
          (W (Proc.devRef .tc main_arg7)) (W (Proc.devRef .tc main_arg8))
          (W (Proc.devRef .tc main_arg9)) (W (Proc.devRef .tc main_arg10)) := by
  simp only [hostOps1, hostOps1_1, hostOps1_2, hostOps1_3, hostOps1_4, hostOps1_5, hostOps1_6, hostOps1_7,
    List.flatten_cons, List.flatten_nil, List.append_nil, List.cons_append, List.nil_append]
  after_results_simp
  simp only [Cert.Lib.ofBuf_toBuf]
  simp only [TRef.ofBuf, TRef.toBuf, cast_cast, cast_eq]
  rfl

/-- The b-nodes' lines over any contents W: the node update of W's b-node features and the sum of W's 32 partial sums. -/
private theorem tail29_of (W : Valuation τ sig (Elt Ideal)) :
    StableHlo.after (List.flatten ([hostOps1, hostOps1_1, hostOps1_2, hostOps1_3, hostOps1_4, hostOps1_5, hostOps1_6, hostOps1_7] : List (List (HloOp τ sig (Elt Ideal))))) W (Proc.devRef .tc main_v29)
      = nodeMlp (F := Ideal) (W (Proc.devRef .tc main_arg2))
          (Host.reduceAdd (F := Ideal) (W (Proc.devRef .tc main_v6_2)) (constant (F := Ideal) S_ .f32 0x00000000#32) reducesTo_S32x512x128_S512x128_d0 h_S_)
          (W (Proc.devRef .tc main_arg7)) (W (Proc.devRef .tc main_arg8))
          (W (Proc.devRef .tc main_arg9)) (W (Proc.devRef .tc main_arg10)) := by
  simp only [hostOps1, hostOps1_1, hostOps1_2, hostOps1_3, hostOps1_4, hostOps1_5, hostOps1_6, hostOps1_7,
    List.flatten_cons, List.flatten_nil, List.append_nil, List.cons_append, List.nil_append]
  after_results_simp
  simp only [Cert.Lib.ofBuf_toBuf]
  simp only [TRef.ofBuf, TRef.toBuf, cast_cast, cast_eq]
  rfl

/-- What the region leaves at an array that is no window's: what was there before it, which is the array as launched. -/
private theorem W_arg2 (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans (V_main_arg2 m c)
private theorem W_arg7 (c : Dev nD) :
    Pipeline.withArrays (cfgs 0).spec c (V0 m c) (fun w => (dats m 0 c).arrAt w (cfgs 0).N) (Proc.devRef .tc main_arg7)
      = m ((c.tc : Thread nD τ).loc main_arg7) :=
  (Pipeline.withArrays_of_ne _ c (V0 m c) _ main_arg7 (by exact (by decide : ∀ w, Pipeline.arrRef spec0 w ≠ main_arg7))).trans (V_main_arg7 m c)
private theorem W_arg8 (c : Dev nD) :
    Pipeline.withArrays (cfgs 0).spec c (V0 m c) (fun w => (dats m 0 c).arrAt w (cfgs 0).N) (Proc.devRef .tc main_arg8)
      = m ((c.tc : Thread nD τ).loc main_arg8) :=
  (Pipeline.withArrays_of_ne _ c (V0 m c) _ main_arg8 (by exact (by decide : ∀ w, Pipeline.arrRef spec0 w ≠ main_arg8))).trans (V_main_arg8 m c)
private theorem W_arg9 (c : Dev nD) :
    Pipeline.withArrays (cfgs 0).spec c (V0 m c) (fun w => (dats m 0 c).arrAt w (cfgs 0).N) (Proc.devRef .tc main_arg9)
      = m ((c.tc : Thread nD τ).loc main_arg9) :=
  (Pipeline.withArrays_of_ne _ c (V0 m c) _ main_arg9 (by exact (by decide : ∀ w, Pipeline.arrRef spec0 w ≠ main_arg9))).trans (V_main_arg9 m c)
private theorem W_arg10 (c : Dev nD) :
    Pipeline.withArrays (cfgs 0).spec c (V0 m c) (fun w => (dats m 0 c).arrAt w (cfgs 0).N) (Proc.devRef .tc main_arg10)
      = m ((c.tc : Thread nD τ).loc main_arg10) :=
  (Pipeline.withArrays_of_ne _ c (V0 m c) _ main_arg10 (by exact (by decide : ∀ w, Pipeline.arrRef spec0 w ≠ main_arg10))).trans (V_main_arg10 m c)

/-- The a-node features are an input window's array: the region leaves it as it found it, which is as launched. -/
private theorem W_arg1 (c : Dev nD) :
    Pipeline.withArrays (cfgs 0).spec c (V0 m c) (fun w => (dats m 0 c).arrAt w (cfgs 0).N) (Proc.devRef .tc main_arg1)
      = m ((c.tc : Thread nD τ).loc main_arg1) :=
  (Pipeline.withArrays_arr spec0 launch0.win.arr_inj c (V0 m c) (fun w => (dats m 0 c).arrAt w (cfgs 0).N) 1).trans
    (((dats m 0 c).arrAt_in 1 rfl _).trans ((A_eq m c 1).trans (V_main_arg1 m c)))

/-- The arrays of the two output windows the later lines read, after the region's last point. -/
private theorem W_v6_1 (c : Dev nD) :
    Pipeline.withArrays (cfgs 0).spec c (V0 m c) (fun w => (dats m 0 c).arrAt w (cfgs 0).N) (Proc.devRef .tc main_v6_1)
      = (dats m 0 c).arrAt 9 cfg0.N :=
  Pipeline.withArrays_arr spec0 launch0.win.arr_inj c (V0 m c) (fun w => (dats m 0 c).arrAt w (cfgs 0).N) 9
private theorem W_v6_2 (c : Dev nD) :
    Pipeline.withArrays (cfgs 0).spec c (V0 m c) (fun w => (dats m 0 c).arrAt w (cfgs 0).N) (Proc.devRef .tc main_v6_2)
      = (dats m 0 c).arrAt 10 cfg0.N :=
  Pipeline.withArrays_arr spec0 launch0.win.arr_inj c (V0 m c) (fun w => (dats m 0 c).arrAt w (cfgs 0).N) 10

/-- The a-nodes' result: the node update of the a-node features and the region's sums over b. -/
theorem tail18 (c : Dev nD) :
    Pipeline.afterTail₀ cfgs (dats m) 0 (V0 m) [hostOps1, hostOps1_1, hostOps1_2, hostOps1_3, hostOps1_4, hostOps1_5, hostOps1_6, hostOps1_7] c main_v18
      = nodeMlp (F := Ideal) (m ((c.tc : Thread nD τ).loc main_arg1)) ((dats m 0 c).arrAt 9 cfg0.N)
          (m ((c.tc : Thread nD τ).loc main_arg7)) (m ((c.tc : Thread nD τ).loc main_arg8))
          (m ((c.tc : Thread nD τ).loc main_arg9)) (m ((c.tc : Thread nD τ).loc main_arg10)) := by
  unfold Pipeline.afterTail₀
  refine (tail18_of _).trans ?_
  rw [W_arg1 m c, W_v6_1 m c, W_arg7 m c, W_arg8 m c, W_arg9 m c, W_arg10 m c]

/-- The b-nodes' result: the node update of the b-node features and the sum of the region's 32 partial sums. -/
theorem tail29 (c : Dev nD) :
    Pipeline.afterTail₀ cfgs (dats m) 0 (V0 m) [hostOps1, hostOps1_1, hostOps1_2, hostOps1_3, hostOps1_4, hostOps1_5, hostOps1_6, hostOps1_7] c main_v29
      = nodeMlp (F := Ideal) (m ((c.tc : Thread nD τ).loc main_arg2))
          (Host.reduceAdd (F := Ideal) ((dats m 0 c).arrAt 10 cfg0.N) (constant (F := Ideal) S_ .f32 0x00000000#32) reducesTo_S32x512x128_S512x128_d0 h_S_)
          (m ((c.tc : Thread nD τ).loc main_arg7)) (m ((c.tc : Thread nD τ).loc main_arg8))
          (m ((c.tc : Thread nD τ).loc main_arg9)) (m ((c.tc : Thread nD τ).loc main_arg10)) := by
  unfold Pipeline.afterTail₀
  refine (tail29_of _).trans ?_
  rw [W_arg2 m c, W_v6_2 m c, W_arg7 m c, W_arg8 m c, W_arg9 m c, W_arg10 m c]

end Cert.KernelIdeal.Bridge

end
-- ==== Proof.SumB.lean ====
/-
  The host's last reduction in the kernel's program adds the 32 partial sums, from a zero initial value: at each
  (b, d) that is the sum over all 512 values of a, the groups of 16 consecutive values put back together.
-/
import proofs.«150146_j83210696393444_2_alg».proof.Proof.Spec
import Idealize.ShloMosaic.PureOps.Ideal.Laws
import Idealize.ShloMosaic.Lib.ValueIdx

noncomputable section

namespace Cert.EdgeNet

open Idealize.ShloMosaic Idealize.ShloMosaic.ValueIdx

/-- The sum over the first axis of the partial-sums array, from zero, is the array of sums over a. -/
theorem reduce_partB (P : Params) (h' : (⟨3, ![32, 512, 128]⟩ : Shape).ReducesTo [0] ⟨2, ![512, 128]⟩)
    (hS : 0 < (⟨0, ![]⟩ : Shape).numel) :
    Host.reduceAdd (F := Ideal) (φ := .f32) (partBArr P) (constant (F := Ideal) ⟨0, ![]⟩ .f32 0x00000000#32) h' hS
      = sumBArr P := by
  funext i
  obtain ⟨q, d, rfl⟩ : ∃ (q : Fin 512) (d : Fin 128), i = ix2 q d := ⟨i 0, i 1, eq_ix2 i⟩
  simp only [Host.reduceAdd, Ideal.hostReduceAdd_def]
  rw [Ideal.hostReduceAdd_single h' (by decide)]
  rw [constant_apply, Ideal.ofBits_zero_f32, zero_add]
  refine Eq.trans (Finset.sum_congr rfl fun k _ => ?_) (sum_partB P q d)
  exact congrArg (partBArr P) (funext fun a => Fin.ext (by match a with | ⟨0, _⟩ => rfl | ⟨1, _⟩ => rfl | ⟨2, _⟩ => rfl))

end Cert.EdgeNet

end
-- ==== Proof.KernelRun.lean ====
/-
  The kernel program's run with its results named: the region leaves the updated edges, their sums over b and
  their partial sums over groups of 16 values of a; the host lines after it add the partial sums up and apply the
  node update. In terms of the argument arrays alone: the updated edges are lat of the parameters read off the
  arguments, and the two node results are the node update of the a-node features with the sums of lat over b, and
  of the b-node features with the sums of lat over a. The arguments end unchanged.
-/
import proofs.«150146_j83210696393444_2_alg».proof.Proof.Blocks
import proofs.«150146_j83210696393444_2_alg».proof.Proof.HostSide
import proofs.«150146_j83210696393444_2_alg».proof.Proof.SumB

noncomputable section

namespace Cert.KernelIdeal.Bridge

open Cert.KernelIdeal Cert.KernelIdeal.Gen Idealize.ShloMosaic Idealize.ShloMosaic.ValueIdx Idealize.SL.Sem Cert.EdgeNet

variable (m : (ℓ : Loc nD τ sig) → Buf (Elt Ideal) ℓ) (ρ : Dev nD → PrngReg)

/-- The edge update's parameters read off core `c`'s argument arrays. -/
abbrev argP (c : Dev nD) : Params :=
  mkP (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The updated edges after the run. -/
theorem edges_eq (c : Dev nD) : ((dats m 0 c).arrAt 8 cfg0.N : S512x512x128.Idx → EReal) = latArr (argP m c) :=
  (final8 m c).trans (congrArg latArr (kerP_eq m c))

/-- The a-nodes' result after the run. -/
theorem nodesA_eq (c : Dev nD) :
    Pipeline.afterTail₀ cfgs (dats m) 0 (V0 m) [hostOps1, hostOps1_1, hostOps1_2, hostOps1_3, hostOps1_4, hostOps1_5, hostOps1_6, hostOps1_7] c main_v18
      = nodeMlp (F := Ideal) (m ((c.tc : Thread nD τ).loc main_arg1)) (sumAArr (argP m c)) (m ((c.tc : Thread nD τ).loc main_arg7)) (m ((c.tc : Thread nD τ).loc main_arg8)) (m ((c.tc : Thread nD τ).loc main_arg9)) (m ((c.tc : Thread nD τ).loc main_arg10)) :=
  (tail18 m c).trans (by rw [final9 m c, kerP_eq m c])

/-- The b-nodes' result after the run. -/
theorem nodesB_eq (c : Dev nD) :
    Pipeline.afterTail₀ cfgs (dats m) 0 (V0 m) [hostOps1, hostOps1_1, hostOps1_2, hostOps1_3, hostOps1_4, hostOps1_5, hostOps1_6, hostOps1_7] c main_v29
      = nodeMlp (F := Ideal) (m ((c.tc : Thread nD τ).loc main_arg2)) (sumBArr (argP m c)) (m ((c.tc : Thread nD τ).loc main_arg7)) (m ((c.tc : Thread nD τ).loc main_arg8)) (m ((c.tc : Thread nD τ).loc main_arg9)) (m ((c.tc : Thread nD τ).loc main_arg10)) :=
  (tail29 m c).trans (by rw [final10 m c, kerP_eq m c, reduce_partB])

/-- Every weakly fair execution of the kernel program terminates with the three results at these functions of
    the argument arrays, and the arguments unchanged. -/
theorem run : θ_run defs (onTc (τ := τ) (main (F := Ideal))) ⟨m, fun _ => 0, ρ⟩ (fun r => ∀ c : Dev nD,
      r.2.mem ((c.tc : Thread nD τ).loc main_v6_0) = latArr (argP m c)
      ∧ r.2.mem ((c.tc : Thread nD τ).loc main_v18) = nodeMlp (F := Ideal) (m ((c.tc : Thread nD τ).loc main_arg1)) (sumAArr (argP m c)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v29) = nodeMlp (F := Ideal) (m ((c.tc : Thread nD τ).loc main_arg2)) (sumBArr (argP m c)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 8).trans (edges_eq m c),
      ((h c).2 main_v18 (Pipeline.mem_restRefs_of main_v18 (by decide) (by decide))).trans (nodesA_eq m c),
      ((h c).2 main_v29 (Pipeline.mem_restRefs_of main_v29 (by decide) (by decide))).trans (nodesB_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.Bridge

end
-- ==== Proof.RefValue.lean ====
/-
  The reference program computes the specification. Its edge update is, index by index, the two-layer perceptron
  lat of the parameters read off its argument arrays: the three host products are plain sums over the contracted
  axis, the row bands of the first layer's weights are read at shifted rows, and the biases are broadcast along
  the feature axis. Its two reductions are the sums of lat over b and over a, from a zero initial value. Its two
  node results are the shared node update of those sums.
-/
import proofs.«150146_j83210696393444_2_alg».proof.Proof.Gen.ReferenceIdeal.Read
import proofs.«150146_j83210696393444_2_alg».proof.Proof.Spec
import proofs.«150146_j83210696393444_2_alg».proof.Proof.Tail
import proofs.«150146_j83210696393444_2_alg».proof.Proof.LibPlainDot
import Idealize.ShloMosaic.Lib.ValueLayout

noncomputable section

namespace Cert.ReferenceIdeal.Bridge

open Cert.ReferenceIdeal Cert.ReferenceIdeal.Gen Cert.ReferenceIdeal.Read Idealize.ShloMosaic Idealize.ShloMosaic.ValueIdx Cert.EdgeNet

variable (x0 : (⟨S512x512x256, .f32⟩ : BufTy).Contents (Elt Ideal)) (x1 x2 x3 : (⟨S512x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal))

/-- The reference's hidden layer at edge (a, b), feature e, is the specification's: the a-node product reads the
    first weight band, the b-node product is the projected b-node features, the edge product reads the third band,
    and the bias is read at the feature. -/
theorem ref_hid (a b : Fin 512) (e : Fin 128) :
    val_main_v15 (F := Ideal) x0 x1 x2 x3 x4 (ix3 a b e) = hid (mkP x0 x1 x2 x3 x4 x5 x6) a b e := by
  rw [val_main_v15_apply, val_main_v14_apply, val_main_v11_apply, val_main_v9_apply, val_main_v13_apply,
    val_main_v12_apply, val_main_v10_apply, val_main_v7_apply, val_main_v4_apply, val_main_v3_apply,
    val_main_v8_apply, val_main_v6_apply, val_main_v5_apply, val_main_call0_v0_apply, val_main_call0_cst_apply]
  unfold hid
  refine congrArg₂ max (congrArg₂ (· + ·) (congrArg₂ (· + ·) (congrArg₂ (· + ·) ?_ ?_) ?_) ?_) Ideal.ofBits_zero_f32
  · -- the a-node product: rows 0..127 of the weights
    refine Finset.sum_congr rfl fun k _ => ?_
    rw [val_main_v0_apply]
    refine congrArg₂ (· * ·) (congrArg x1 ?_) (congrArg x3 ?_)
    · exact funext fun c => Fin.ext (by match c with | ⟨0, _⟩ => rfl | ⟨1, _⟩ => rfl)
    · exact funext fun c => Fin.ext (by match c with | ⟨0, _⟩ => exact (Nat.zero_add _).symm | ⟨1, _⟩ => rfl)
  · -- the b-node product: rows 128..255
    show _ = ∑ k : Fin 128, x2 (ix2 b k) * x3 (ix2 (bandRow 128 128 (by omega) k) e)
    refine Finset.sum_congr rfl fun k _ => ?_
    rw [val_main_v1_apply]
    refine congrArg₂ (· * ·) (congrArg x2 ?_) (congrArg x3 ?_)
    · exact funext fun c => Fin.ext (by match c with | ⟨0, _⟩ => rfl | ⟨1, _⟩ => rfl)
    · exact funext fun c => Fin.ext (by match c with | ⟨0, _⟩ => rfl | ⟨1, _⟩ => rfl)
  · -- the edge product: rows 256..511
    refine Finset.sum_congr rfl fun k _ => ?_
    rw [val_main_v2_apply]
    refine congrArg₂ (· * ·) (congrArg x0 ?_) (congrArg x3 ?_)
    · exact funext fun c => Fin.ext (by match c with | ⟨0, _⟩ => rfl | ⟨1, _⟩ => rfl | ⟨2, _⟩ => rfl)
    · exact funext fun c => Fin.ext (by match c with | ⟨0, _⟩ => rfl | ⟨1, _⟩ => rfl)
  · -- the bias
    exact congrArg x4 (funext fun c => Fin.ext (by match c with | ⟨0, _⟩ => rfl))

/-- The reference's updated edges are the specification's. -/
theorem ref_lat : val_main_v20 (F := Ideal) x0 x1 x2 x3 x4 x5 x6 = latArr (mkP x0 x1 x2 x3 x4 x5 x6) := by
  funext i
  obtain ⟨a, b, d, rfl⟩ : ∃ (a : Fin 512) (b : Fin 512) (d : Fin 128), i = ix3 a b d := ⟨i 0, i 1, i 2, eq_ix3 i⟩
  rw [val_main_v20_apply, val_main_v19_apply, val_main_v16_apply, val_main_v18_apply, val_main_v17_apply,
    val_main_call1_v0_apply, val_main_call1_cst_apply]
  show _ = lat (mkP x0 x1 x2 x3 x4 x5 x6) a b d
  unfold lat
  refine congrArg₂ max (congrArg₂ (· + ·) (Finset.sum_congr rfl fun k _ => ?_) ?_) Ideal.ofBits_zero_f32
  · -- the second layer's product over the hidden features
    have hl : lidx_main_v16 (ix3 a b d) k = ix3 a b k :=
      funext fun c => Fin.ext (by match c with | ⟨0, _⟩ => rfl | ⟨1, _⟩ => rfl | ⟨2, _⟩ => rfl)
    rw [hl, ref_hid x0 x1 x2 x3 x4 x5 x6 a b k]
    exact congrArg (_ * ·) (congrArg x5 (funext fun c => Fin.ext (by match c with | ⟨0, _⟩ => rfl | ⟨1, _⟩ => rfl)))
  · -- the bias
    exact congrArg x6 (funext fun c => Fin.ext (by match c with | ⟨0, _⟩ => rfl))

/-- The reference's sums over b. -/
theorem ref_sumA : val_main_v21 (F := Ideal) x0 x1 x2 x3 x4 x5 x6 = sumAArr (mkP x0 x1 x2 x3 x4 x5 x6) := by
  funext i
  obtain ⟨a, d, rfl⟩ : ∃ (a : Fin 512) (d : Fin 128), i = ix2 a d := ⟨i 0, i 1, eq_ix2 i⟩
  rw [val_main_v21_apply, val_main_cst_apply, ref_lat]
  refine (congrArg (· + _) Ideal.ofBits_zero_f32).trans ((zero_add _).trans ?_)
  rfl

/-- The reference's sums over a. -/
theorem ref_sumB : val_main_v22 (F := Ideal) x0 x1 x2 x3 x4 x5 x6 = sumBArr (mkP x0 x1 x2 x3 x4 x5 x6) := by
  funext i
  obtain ⟨b, d, rfl⟩ : ∃ (b : Fin 512) (d : Fin 128), i = ix2 b d := ⟨i 0, i 1, eq_ix2 i⟩
  rw [val_main_v22_apply, val_main_cst_0_apply, ref_lat]
  refine (congrArg (· + _) Ideal.ofBits_zero_f32).trans ((zero_add _).trans ?_)
  rfl

/-- The reference's a-node result is the shared node update of its sums over b. -/
theorem ref_nodesA : val_main_v33 (F := Ideal) x0 x1 x2 x3 x4 x5 x6 x7 x8 x9 x10
    = nodeMlp (F := Ideal) x1 (val_main_v21 (F := Ideal) x0 x1 x2 x3 x4 x5 x6) x7 x8 x9 x10 := by
  unfold val_main_v33 val_main_v32 val_main_call3_v0 val_main_call3_cst val_main_v31 val_main_v30 val_main_v29
    val_main_v28 val_main_call2_v0 val_main_call2_cst val_main_v27 val_main_v26 val_main_v25 val_main_v24
    val_main_v23 nodeMlp
  rfl

/-- The reference's b-node result is the shared node update of its sums over a. -/
theorem ref_nodesB : val_main_v44 (F := Ideal) x0 x1 x2 x3 x4 x5 x6 x7 x8 x9 x10
    = nodeMlp (F := Ideal) x2 (val_main_v22 (F := Ideal) x0 x1 x2 x3 x4 x5 x6) x7 x8 x9 x10 := by
  unfold val_main_v44 val_main_v43 val_main_call5_v0 val_main_call5_cst val_main_v42 val_main_v41 val_main_v40
    val_main_v39 val_main_call4_v0 val_main_call4_cst val_main_v38 val_main_v37 val_main_v36 val_main_v35
    val_main_v34 nodeMlp
  rfl

end Cert.ReferenceIdeal.Bridge

end
-- ==== Proof.RefRun.lean ====
/-
  The reference program's run with its results named in the specification's terms: the updated edges are lat of
  the parameters read off the arguments, and the two node results are the node update of the a-node features with
  the sums of lat over b, and of the b-node features with the sums of lat over a. The arguments end unchanged.
-/
import proofs.«150146_j83210696393444_2_alg».proof.Proof.RefValue

noncomputable section

namespace Cert.ReferenceIdeal.Bridge

open Cert.ReferenceIdeal Cert.ReferenceIdeal.Gen Idealize.ShloMosaic Idealize.ShloMosaic.ValueIdx Idealize.SL.Sem Cert.EdgeNet

variable (m : (ℓ : Loc nD τ sig) → Buf (Elt Ideal) ℓ) (ρ : Dev nD → PrngReg)

/-- The edge update's parameters read off core `c`'s argument arrays. -/
abbrev argP (c : Dev nD) : Params :=
  mkP (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- Every weakly fair execution of the reference program terminates with the three results at these functions
    of the argument arrays, and the arguments unchanged. -/
theorem run : θ_run defs (onTc (τ := τ) (main (F := Ideal))) ⟨m, fun _ => 0, ρ⟩ (fun r => ∀ c : Dev nD,
      r.2.mem ((c.tc : Thread nD τ).loc main_v20) = latArr (argP m c)
      ∧ r.2.mem ((c.tc : Thread nD τ).loc main_v33) = nodeMlp (F := Ideal) (m ((c.tc : Thread nD τ).loc main_arg1)) (sumAArr (argP m c)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v44) = nodeMlp (F := Ideal) (m ((c.tc : Thread nD τ).loc main_arg2)) (sumBArr (argP m c)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      (h c).1.trans ((Read.val_main_v20_eq (F := Ideal) _ _ _ _ _ _ _).trans (ref_lat _ _ _ _ _ _ _)),
      (h c).2.1.trans ((Read.val_main_v33_eq (F := Ideal) _ _ _ _ _ _ _ _ _ _ _).trans
        ((ref_nodesA _ _ _ _ _ _ _ _ _ _ _).trans (by rw [ref_sumA]))),
      (h c).2.2.1.trans ((Read.val_main_v44_eq (F := Ideal) _ _ _ _ _ _ _ _ _ _ _).trans
        ((ref_nodesB _ _ _ _ _ _ _ _ _ _ _).trans (by rw [ref_sumB]))),
      (h c).2.2.2⟩)
    (Cert.ReferenceIdeal.Value.run (F := Ideal) m ρ)

end Cert.ReferenceIdeal.Bridge

end
-- ==== Proof.lean ====
/-
  The certificate of an edge-and-node update on a complete bipartite graph of 512 by 512 nodes.

  Each edge (a, b) is updated by a two-layer perceptron that sees the edge's 256 features and its two end nodes;
  each node is then updated from its own features and the sum of its incident updated edges. The reference
  computes this with whole-array host operations. The kernel program computes the edge update tile by tile (16
  values of a at a time, 32 tiles), contracting the 256 edge features as two halves, and writes for each tile the
  updated edges, their sums over b, and their sum over the tile's 16 values of a; host lines add the 32 partial
  sums and apply the node update.

  On the extended reals the two programs are the same function of the arguments: a matrix product into a zero
  accumulator is the plain sum over the contracted axis, a change of float format is the identity, a sum over 256
  features is the sum of the sums over its halves, and a sum over 512 values is the sum of the 32 sums over 16
  consecutive values. These are laws of a commutative monoid; no value has to be finite, so the precondition is
  never opened. The node update is the same function in both programs and is never opened either.

  The three frames are the generated ones (the reference's from its generated run); the idealization rewrote no
  operation of the kernel, so there is nothing to preserve.
-/
import proofs.«150146_j83210696393444_2_alg».proof.Defs
import proofs.«150146_j83210696393444_2_alg».proof.Proof.Gen.Kernel
import proofs.«150146_j83210696393444_2_alg».proof.Proof.Gen.Kernel.Frame
import proofs.«150146_j83210696393444_2_alg».proof.Proof.Gen.KernelIdeal
import proofs.«150146_j83210696393444_2_alg».proof.Proof.Gen.KernelIdeal.Frame
import proofs.«150146_j83210696393444_2_alg».proof.Proof.Gen.ReferenceIdeal
import proofs.«150146_j83210696393444_2_alg».proof.Proof.Gen.ReferenceIdeal.Run
import proofs.«150146_j83210696393444_2_alg».proof.Proof.Gen.ReferenceIdeal.Read
import proofs.«150146_j83210696393444_2_alg».proof.Proof.Gen.Pre_finite_inputs
import proofs.«150146_j83210696393444_2_alg».proof.Proof.KernelRun
import proofs.«150146_j83210696393444_2_alg».proof.Proof.RefRun
import Idealize.ShloMosaic.Adequacy
import Idealize.ShloMosaic.Init

noncomputable section

namespace Cert.Proof

open Idealize.ShloMosaic Idealize.SL.Sem Cert.EdgeNet

/-- The kernel program terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Parameters read off equal arrays are equal. -/
theorem mkP_congr {x0 y0 : (⟨3, ![512, 512, 256]⟩ : Shape).Idx → EReal} {x1 y1 x2 y2 x3 y3 : (⟨2, ![512, 128]⟩ : Shape).Idx → EReal}
    {x4 y4 : (⟨1, ![128]⟩ : Shape).Idx → EReal} {x5 y5 : (⟨2, ![128, 128]⟩ : Shape).Idx → EReal} {x6 y6 : (⟨1, ![128]⟩ : Shape).Idx → EReal}
    (h0 : x0 = y0) (h1 : x1 = y1) (h2 : x2 = y2) (h3 : x3 = y3) (h4 : x4 = y4) (h5 : x5 = y5) (h6 : x6 = y6) :
    mkP x0 x1 x2 x3 x4 x5 x6 = mkP y0 y1 y2 y3 y4 y5 y6 := by
  subst h0 h1 h2 h3 h4 h5 h6; rfl

/-- The node update of equal features, sums and weights is equal. -/
theorem nodeMlp_congr {x x' s s' : (⟨Cert.ReferenceIdeal.S512x128, .f32⟩ : BufTy).Contents (Elt Ideal)}
    {w1 w1' : (⟨Cert.ReferenceIdeal.S256x128, .f32⟩ : BufTy).Contents (Elt Ideal)} {b1 b1' : (⟨Cert.ReferenceIdeal.S128, .f32⟩ : BufTy).Contents (Elt Ideal)}
    {w2 w2' : (⟨Cert.ReferenceIdeal.S128x128, .f32⟩ : BufTy).Contents (Elt Ideal)} {b2 b2' : (⟨Cert.ReferenceIdeal.S128, .f32⟩ : BufTy).Contents (Elt Ideal)}
    (hx : x = x') (hs : s = s') (hw1 : w1 = w1') (hb1 : b1 = b1') (hw2 : w2 = w2') (hb2 : b2 = b2') :
    nodeMlp (F := Ideal) x s w1 b1 w2 b2 = nodeMlp (F := Ideal) x' s' w1' b1' w2' b2' := by
  subst hx hs hw1 hb1 hw2 hb2; rfl

/-- From memories that agree on the arguments the two idealized programs end with the same three results: both
    are the specification's functions of the arguments. -/
theorem algebraic : Cert.algebraic_KernelIdeal_ReferenceIdeal := by
  intro m ρ m' ρ' _ hagree
  refine ⟨_, _, _, Cert.KernelIdeal.Bridge.run m ρ, ?_⟩
  refine (θ_run Cert.ReferenceIdeal.defs _ _).mono (fun r h c => ?_) (Cert.ReferenceIdeal.Bridge.run m' ρ')
  obtain ⟨h0, h1, h2, hargs⟩ := h c
  obtain ⟨e0, e1, e2, e3, e4, e5, e6, e7, e8, e9, e10⟩ := hagree c
  have eP : Cert.ReferenceIdeal.Bridge.argP m' c = Cert.KernelIdeal.Bridge.argP m c := mkP_congr e0 e1 e2 e3 e4 e5 e6
  exact ⟨h0.trans (congrArg latArr eP),
    h1.trans (nodeMlp_congr e1 (congrArg sumAArr eP) e7 e8 e9 e10),
    h2.trans (nodeMlp_congr e2 (congrArg sumBArr eP) e7 e8 e9 e10), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
